-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S1024x256 : Shape := ⟨2, ![1024, 256]⟩
abbrev S256x1024 : Shape := ⟨2, ![256, 1024]⟩
abbrev S256x256 : Shape := ⟨2, ![256, 256]⟩
abbrev S256 : Shape := ⟨1, ![256]⟩
abbrev S65792x1024 : Shape := ⟨2, ![65792, 1024]⟩
abbrev S65792 : Shape := ⟨1, ![65792]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256x1024 : S_.BroadcastsInDim S256x1024 (![] : Fin 0 → Fin S256x1024.rank)
  reducesTo_S256x1024_S_d0_1 : S256x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S65792x1024 : S_.BroadcastsInDim S65792x1024 (![] : Fin 0 → Fin S65792x1024.rank)
  reducesTo_S65792x1024_S_d0_1 : S65792x1024.ReducesTo [0, 1] S_
  bcast_S_S65792 : S_.BroadcastsInDim S65792 (![] : Fin 0 → Fin S65792.rank)
  reducesTo_S65792_S_d0 : S65792.ReducesTo [0] S_

variable [Facts]

def fn_part2 {F : FTy → Type} [FloatOps F] (main_arg7 : FVec F S65792x1024 .f32) (main_arg8 : FVec F S65792 .f32) (main_v33 : IVec S_ 1) : IVec S_ 1 :=
  let main_v34 : FVec F S65792x1024 .f32 := Host.absf main_arg7
  let main_cst_12 : FVec F S_ .f32 := constant S_ .f32 0x7F800000#32
  let main_v35 : FVec F S65792x1024 .f32 := broadcastInDim S65792x1024 ![] bcast_S_S65792x1024 main_cst_12
  let main_v36 : IVec S65792x1024 1 := cmpf .olt main_v34 main_v35
  let main_c_13 : IVec S_ 1 := constantI S_ 1 1#1
  let main_v37 : IVec S_ 1 := (fun x v => Host.reduce IntOp.andi x v reducesTo_S65792x1024_S_d0_1 h_S_) main_v36 main_c_13
  let main_v38 : IVec S_ 1 := andi main_v33 main_v37
  let main_v39 : FVec F S65792 .f32 := Host.absf main_arg8
  let main_cst_14 : FVec F S_ .f32 := constant S_ .f32 0x7F800000#32
  let main_v40 : FVec F S65792 .f32 := broadcastInDim S65792 ![] bcast_S_S65792 main_cst_14
  let main_v41 : IVec S65792 1 := cmpf .olt main_v39 main_v40
  let main_c_15 : IVec S_ 1 := constantI S_ 1 1#1
  let main_v42 : IVec S_ 1 := (fun x v => Host.reduce IntOp.andi x v reducesTo_S65792_S_d0 h_S_) main_v41 main_c_15
  let main_v43 : IVec S_ 1 := andi main_v38 main_v42
  main_v43

def fn_part1 {F : FTy → Type} [FloatOps F] (main_arg4 : FVec F S256x1024 .f32) (main_arg5 : FVec F S256x256 .f32) (main_arg6 : FVec F S256 .f32) (main_arg7 : FVec F S65792x1024 .f32) (main_arg8 : FVec F S65792 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S2048x1024 .f32) (main_arg1 : FVec F S1024x256 .f32) (main_arg2 : FVec F S1024x256 .f32) (main_arg3 : FVec F S1024x256 .f32) (main_arg4 : FVec F S256x1024 .f32) (main_arg5 : FVec F S256x256 .f32) (main_arg6 : FVec F S256 .f32) (main_arg7 : FVec F S65792x1024 .f32) (main_arg8 : FVec F S65792 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_arg7 main_arg8 main_v13 main_v16
-- ==== Kernel.lean ====
abbrev S2048x1024 : Shape := ⟨2, ![2048, 1024]⟩
abbrev S1024x256 : Shape := ⟨2, ![1024, 256]⟩
abbrev S256x1024 : Shape := ⟨2, ![256, 1024]⟩
abbrev S256x256 : Shape := ⟨2, ![256, 256]⟩
abbrev S256 : Shape := ⟨1, ![256]⟩
abbrev S65792x1024 : Shape := ⟨2, ![65792, 1024]⟩
abbrev S65792 : Shape := ⟨1, ![65792]⟩
abbrev S_ : Shape := ⟨0, ![]⟩
abbrev S66560x1024 : Shape := ⟨2, ![66560, 1024]⟩
abbrev S66560 : Shape := ⟨1, ![66560]⟩
abbrev S1024x1024 : Shape := ⟨2, ![1024, 1024]⟩
abbrev S1024 : Shape := ⟨1, ![1024]⟩
abbrev S1x1024 : Shape := ⟨2, ![1, 1024]⟩
abbrev S65536 : Shape := ⟨1, ![65536]⟩
abbrev S2048x256 : Shape := ⟨2, ![2048, 256]⟩
abbrev S1x256 : Shape := ⟨2, ![1, 256]⟩
abbrev S256x2048 : Shape := ⟨2, ![256, 2048]⟩

abbrev nBuf : Space → Nat
  | .hbm => 53
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S256x1024, .f32⟩
  | .hbm, ⟨5, _⟩ => ⟨S256x256, .f32⟩
  | .hbm, ⟨6, _⟩ => ⟨S256, .f32⟩
  | .hbm, ⟨7, _⟩ => ⟨S65792x1024, .f32⟩
  | .hbm, ⟨8, _⟩ => ⟨S65792, .f32⟩
  | .hbm, ⟨9, _⟩ => ⟨S_, .i32⟩
  | .hbm, ⟨10, _⟩ => ⟨S_, .f32⟩
  | .hbm, ⟨11, _⟩ => ⟨S66560x1024, .f32⟩
  | .hbm, ⟨12, _⟩ => ⟨S_, .i32⟩
  | .hbm, ⟨13, _⟩ => ⟨S_, .f32⟩
  | .hbm, ⟨14, _⟩ => ⟨S66560, .f32⟩
  | .hbm, ⟨15, _⟩ => ⟨S2048x1024, .bf16⟩
  | .hbm, ⟨16, _⟩ => ⟨S66560x1024, .bf16⟩
  | .hbm, ⟨17, _⟩ => ⟨S66560, .f32⟩
  | .hbm, ⟨18, _⟩ => ⟨S65792, .f32⟩
  | .hbm, ⟨19, _⟩ => ⟨S65536, .f32⟩
  | .hbm, ⟨20, _⟩ => ⟨S256x256, .f32⟩
  | .hbm, ⟨21, _⟩ => ⟨S256, .f32⟩
  | .hbm, ⟨22, _⟩ => ⟨S2048x256, .f32⟩
  | .hbm, ⟨23, _⟩ => ⟨S2048x256, .f32⟩
  | .hbm, ⟨24, _⟩ => ⟨S2048x256, .f32⟩
  | .hbm, ⟨25, _⟩ => ⟨S2048x256, .f32⟩
  | .hbm, ⟨26, _⟩ => ⟨S256x256, .f32⟩
  | .hbm, ⟨27, _⟩ => ⟨S2048x256, .f32⟩
  | .hbm, ⟨28, _⟩ => ⟨S1x256, .f32⟩
  | .hbm, ⟨29, _⟩ => ⟨S2048x256, .f32⟩
  | .hbm, ⟨30, _⟩ => ⟨S2048x256, .f32⟩
  | .hbm, ⟨31, _⟩ => ⟨S2048x256, .f32⟩
  | .hbm, ⟨32, _⟩ => ⟨S256x2048, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256x256, .f32⟩
  | .hbm, ⟨43, _⟩ => ⟨S256x256, .f32⟩
  | .hbm, ⟨44, _⟩ => ⟨S256, .f32⟩
  | .hbm, ⟨45, _⟩ => ⟨S256, .f32⟩
  | .hbm, ⟨46, _⟩ => ⟨S256x256, .f32⟩
  | .hbm, ⟨47, _⟩ => ⟨S2048x256, .f32⟩
  | .hbm, ⟨48, _⟩ => ⟨S1x256, .f32⟩
  | .hbm, ⟨49, _⟩ => ⟨S2048x256, .f32⟩
  | .hbm, ⟨50, _⟩ => ⟨S2048x256, .f32⟩
  | .hbm, ⟨51, _⟩ => ⟨S2048x256, .f32⟩
  | .hbm, ⟨52, _⟩ => ⟨S2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S65792x1024_S66560x1024_07680_000 : S65792x1024.Pads (![0, 0] : Fin 2 → Nat) ![768, 0] ![0, 0] S66560x1024
  h_S_ : 0 < S_.numel
  pads_S65792_S66560_07680 : S65792.Pads (![0] : Fin 1 → Nat) ![768] ![0] S66560
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S2048x1024 : S1x1024.Broadcasts S2048x1024
  reduces_S2048x1024_S1024 : S2048x1024.Reduces [0] S1024
  slices_S66560_S65792_0 : S66560.Slices ![0] S65792
  slices_S65792_S65536_0 : S65792.Slices ![0] S65536
  shapeCasts_S65536_S256x256 : S65536.ShapeCasts S256x256
  slices_S65792_S256_65536 : S65792.Slices ![65536] S256
  transposes_S256x256_S256x256_1_0 : S256x256.Transposes [1, 0] S256x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  transposes_S2048x256_S256x2048_1_0 : S2048x256.Transposes [1, 0] S256x2048
  bcast_S_S256x256 : S_.BroadcastsInDim S256x256 (![] : Fin 0 → Fin S256x256.rank)
  reducesTo_S2048x256_S256_d0 : S2048x256.ReducesTo [0] S256
  bcast_S_S256 : S_.BroadcastsInDim S256 (![] : Fin 0 → Fin S256.rank)
  dot_S2048x1024_S1024x1024_S2048x1024_1_1_0_0_n_n_wf : DotDims.WF S2048x1024 S1024x1024 S2048x1024 [1] [1] [0] [0] [] []
  dot_S2048x1024_S1024x256_S2048x256_1_0_0_1_n_n_wf : DotDims.WF S2048x1024 S1024x256 S2048x256 [1] [0] [0] [1] [] []
  dot_S2048x256_S256x256_S2048x256_1_0_0_1_n_n_wf : DotDims.WF S2048x256 S256x256 S2048x256 [1] [0] [0] [1] [] []
  dot_S256x2048_S2048x256_S256x256_1_0_0_1_n_n_wf : DotDims.WF S256x2048 S2048x256 S256x256 [1] [0] [0] [1] [] []
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S2048x1024.size a
  hwx0_0 : ∀ i : grid0.Coords, EltTy.bits .bf16 = 32 ∨ (Rect.block (s := S2048x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S66560x1024.size a
  hwx0_1 : ∀ i : grid0.Coords, EltTy.bits .bf16 = 32 ∨ (Rect.block (s := S66560x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S66560.size a
  hwx0_2 : ∀ i : grid0.Coords, EltTy.bits .f32 = 32 ∨ (Rect.block (s := S66560) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S66560.size a
  hwx0_3 : ∀ i : grid0.Coords, EltTy.bits .f32 = 32 ∨ (Rect.block (s := S66560) S1024.size (cc0_transform_3 i) (hinb0_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_v2) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S1024x256 : Shape := ⟨2, ![1024, 256]⟩
abbrev S256x1024 : Shape := ⟨2, ![256, 1024]⟩
abbrev S256x256 : Shape := ⟨2, ![256, 256]⟩
abbrev S256 : Shape := ⟨1, ![256]⟩
abbrev S65792x1024 : Shape := ⟨2, ![65792, 1024]⟩
abbrev S65792 : Shape := ⟨1, ![65792]⟩
abbrev S2048x256 : Shape := ⟨2, ![2048, 256]⟩
abbrev S1x256 : Shape := ⟨2, ![1, 256]⟩
abbrev S_ : Shape := ⟨0, ![]⟩
abbrev S1024x65792 : Shape := ⟨2, ![1024, 65792]⟩
abbrev S2048x65792 : Shape := ⟨2, ![2048, 65792]⟩
abbrev S1x65792 : Shape := ⟨2, ![1, 65792]⟩
abbrev S65536 : Shape := ⟨1, ![65536]⟩

abbrev nBuf : Space → Nat
  | .hbm => 75
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S256x1024, .f32⟩
  | .hbm, ⟨5, _⟩ => ⟨S256x256, .f32⟩
  | .hbm, ⟨6, _⟩ => ⟨S256, .f32⟩
  | .hbm, ⟨7, _⟩ => ⟨S65792x1024, .f32⟩
  | .hbm, ⟨8, _⟩ => ⟨S65792, .f32⟩
  | .hbm, ⟨9, _⟩ => ⟨S2048x256, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S256x256, .f32⟩
  | .hbm, ⟨14, _⟩ => ⟨S2048x256, .f32⟩
  | .hbm, ⟨15, _⟩ => ⟨S1x256, .f32⟩
  | .hbm, ⟨16, _⟩ => ⟨S2048x256, .f32⟩
  | .hbm, ⟨17, _⟩ => ⟨S2048x256, .f32⟩
  | .hbm, ⟨18, _⟩ => ⟨S2048x256, .f32⟩
  | .hbm, ⟨19, _⟩ => ⟨S2048x256, .f32⟩
  | .hbm, ⟨20, _⟩ => ⟨S_, .f32⟩
  | .hbm, ⟨21, _⟩ => ⟨S2048x256, .f32⟩
  | .hbm, ⟨22, _⟩ => ⟨S2048x256, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S2048x256, .f32⟩
  | .hbm, ⟨31, _⟩ => ⟨S2048x256, .f32⟩
  | .hbm, ⟨32, _⟩ => ⟨S_, .f32⟩
  | .hbm, ⟨33, _⟩ => ⟨S256, .f32⟩
  | .hbm, ⟨34, _⟩ => ⟨S1x256, .f32⟩
  | .hbm, ⟨35, _⟩ => ⟨S_, .f32⟩
  | .hbm, ⟨36, _⟩ => ⟨S256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S1024x65792, .f32⟩
  | .hbm, ⟨41, _⟩ => ⟨S2048x65792, .f32⟩
  | .hbm, ⟨42, _⟩ => ⟨S1x65792, .f32⟩
  | .hbm, ⟨43, _⟩ => ⟨S2048x65792, .f32⟩
  | .hbm, ⟨44, _⟩ => ⟨S2048x65792, .f32⟩
  | .hbm, ⟨45, _⟩ => ⟨S2048x65792, .f32⟩
  | .hbm, ⟨46, _⟩ => ⟨S2048x65792, .f32⟩
  | .hbm, ⟨47, _⟩ => ⟨S_, .f32⟩
  | .hbm, ⟨48, _⟩ => ⟨S2048x65792, .f32⟩
  | .hbm, ⟨49, _⟩ => ⟨S2048x65792, .f32⟩
  | .hbm, ⟨50, _⟩ => ⟨S_, .f32⟩
  | .hbm, ⟨51, _⟩ => ⟨S2048x65792, .f32⟩
  | .hbm, ⟨52, _⟩ => ⟨S2048x65792, .f32⟩
  | .hbm, ⟨53, _⟩ => ⟨S_, .f32⟩
  | .hbm, ⟨54, _⟩ => ⟨S2048x65792, .f32⟩
  | .hbm, ⟨55, _⟩ => ⟨S2048x65792, .f32⟩
  | .hbm, ⟨56, _⟩ => ⟨S_, .f32⟩
  | .hbm, ⟨57, _⟩ => ⟨S65792, .f32⟩
  | .hbm, ⟨58, _⟩ => ⟨S_, .f32⟩
  | .hbm, ⟨59, _⟩ => ⟨S65792, .f32⟩
  | .hbm, ⟨60, _⟩ => ⟨S65792, .f32⟩
  | .hbm, ⟨61, _⟩ => ⟨S65536, .f32⟩
  | .hbm, ⟨62, _⟩ => ⟨S256x256, .f32⟩
  | .hbm, ⟨63, _⟩ => ⟨S256, .f32⟩
  | .hbm, ⟨64, _⟩ => ⟨S256x256, .f32⟩
  | .hbm, ⟨65, _⟩ => ⟨S256x256, .f32⟩
  | .hbm, ⟨66, _⟩ => ⟨S256, .f32⟩
  | .hbm, ⟨67, _⟩ => ⟨S256, .f32⟩
  | .hbm, ⟨68, _⟩ => ⟨S256x256, .f32⟩
  | .hbm, ⟨69, _⟩ => ⟨S2048x256, .f32⟩
  | .hbm, ⟨70, _⟩ => ⟨S1x256, .f32⟩
  | .hbm, ⟨71, _⟩ => ⟨S2048x256, .f32⟩
  | .hbm, ⟨72, _⟩ => ⟨S2048x256, .f32⟩
  | .hbm, ⟨73, _⟩ => ⟨S2048x256, .f32⟩
  | .hbm, ⟨74, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  reducesTo_S2048x256_S_d0_1 : S2048x256.ReducesTo [0, 1] S_
  h_S_ : 0 < S_.numel
  reducesTo_S2048x256_S256_d0 : S2048x256.ReducesTo [0] S256
  shapeCasts_S256_S1x256 : S256.ShapeCasts S1x256
  reducesTo_S1x256_S256_d0 : S1x256.ReducesTo [0] S256
  transposes_S65792x1024_S1024x65792_1_0 : S65792x1024.Transposes [1, 0] S1024x65792
  bcast_S65792_S1x65792_1 : S65792.BroadcastsInDim S1x65792 (![1] : Fin 1 → Fin S1x65792.rank)
  bcast_S1x65792_S2048x65792_0_1 : S1x65792.BroadcastsInDim S2048x65792 (![0, 1] : Fin 2 → Fin S2048x65792.rank)
  bcast_S_S2048x65792 : S_.BroadcastsInDim S2048x65792 (![] : Fin 0 → Fin S2048x65792.rank)
  reducesTo_S2048x65792_S65792_d0 : S2048x65792.ReducesTo [0] S65792
  bcast_S_S65792 : S_.BroadcastsInDim S65792 (![] : Fin 0 → Fin S65792.rank)
  slices_S65792_S65536_0 : S65792.Slices ![0] S65536
  shapeCasts_S65536_S256x256 : S65536.ShapeCasts S256x256
  slices_S65792_S256_65536 : S65792.Slices ![65536] S256
  dot_S2048x1024_S1024x256_S2048x256_1_0_0_1_n_n_wf : DotDims.WF S2048x1024 S1024x256 S2048x256 [1] [0] [0] [1] [] []
  dot_S2048x256_S256x256_S2048x256_1_0_0_1_n_n_wf : DotDims.WF S2048x256 S256x256 S2048x256 [1] [0] [0] [1] [] []
  dot_S2048x256_S2048x256_S256x256_0_0_1_1_n_n_wf : DotDims.WF S2048x256 S2048x256 S256x256 [0] [0] [1] [1] [] []
  dot_S2048x1024_S1024x65792_S2048x65792_1_0_0_1_n_n_wf : DotDims.WF S2048x1024 S1024x65792 S2048x65792 [1] [0] [0] [1] [] []
  dot_S2048x256_S256x1024_S2048x1024_1_0_0_1_n_n_wf : DotDims.WF S2048x256 S256x1024 S2048x1024 [1] [0] [0] [1] [] []

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S2048x256_S256x256_0_0_1_1_n_n : DotDims S2048x256 S2048x256 S256x256 where
  lhsContracting := [0]
  rhsContracting := [0]
  lhsNonContracting := [1]
  rhsNonContracting := [1]
  lhsBatch := []
  rhsBatch := []
  wf := dot_S2048x256_S2048x256_S256x256_0_0_1_1_n_n_wf
def dot_S2048x1024_S1024x65792_S2048x65792_1_0_0_1_n_n : DotDims S2048x1024 S1024x65792 S2048x65792 where
  lhsContracting := [1]
  rhsContracting := [0]
  lhsNonContracting := [0]
  rhsNonContracting := [1]
  lhsBatch := []
  rhsBatch := []
  wf := dot_S2048x1024_S1024x65792_S2048x65792_1_0_0_1_n_n_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

class Facts : Prop extends Facts₀ where

variable [Facts]
-- ==== Proof.Spec.lean ====
/-
  The shared vocabulary of this certificate: the stages of the computation as pure functions of arrays over the
  extended reals, each spelled with the operations the two programs print.

  Both programs compute, from the inputs src (x0), theta_k (x1), theta_q (x2), theta_v (x3), theta_o (x4), W (x5),
  b (x6), Wlr (x7), blr (x8):
    train = x0·x1, label = x0·x3, test = x0·x2                       (`proj`)
    e     = (train·Wᵀ + b) − (label − train)                        (`resid`: the residual of the inner regression)
    gW, gb: the gradient of mean(e²) with respect to (W, b)             (two spellings: `gradW…`, `gradB…`)
    post  : per learned rate m, the mean over the 2048 rows n of 0.01·σ(src·Wlrᵀ + blr)[n, m]   (two spellings)
    out   = (test·(W − lr_mat ⊙ gW)ᵀ + (b − lr_bias ⊙ gb) + test)·x4   (`tail`; lr_mat, lr_bias are the first
            256·256 and the last 256 entries of post)
  `proj`, `resid` and `tail` are spelled identically by the two programs. They differ in three places only:
  the kernel scales the summed gradient by 2/(N·F) = 2⁻¹⁸ after the contraction where automatic differentiation
  scales every residual by (1/524288)·2 before it; and the kernel computes post in its grid as
  (Σₙ σ)·(f32(0.01)/2048) where the reference computes (Σₙ f32(0.01)·σ)/2048.
-/
import proofs.«157813_j45432164057777_1_alg».proof.KernelIdeal
import proofs.«157813_j45432164057777_1_alg».proof.ReferenceIdeal
import Idealize.ShloMosaic.PureOps.Ideal
import Idealize.ShloMosaic.Lib.ValueIdx

noncomputable section

namespace Cert.Spec

open Idealize.ShloMosaic

/-! ## The stages both programs spell alike (written with the kernel program's shape facts) -/

section shared
open Cert.KernelIdeal
variable [Cert.KernelIdeal.Facts]
open Cert.KernelIdeal.Facts₀ Cert.KernelIdeal.Facts

/-- A projection of the rows of src: src · θ, [2048,1024] × [1024,256]. -/
def proj (x0 : FVec Ideal S2048x1024 .f32) (θ : FVec Ideal S1024x256 .f32) : FVec Ideal S2048x256 .f32 :=
  Host.dotGeneral dot_S2048x1024_S1024x256_S2048x256_1_0_0_1_n_n none x0 θ

/-- The residual of the inner regression: (train · Wᵀ + b) − (label − train). -/
def resid (x0 : FVec Ideal S2048x1024 .f32) (x1 x3 : FVec Ideal S1024x256 .f32) (x5 : FVec Ideal S256x256 .f32)
    (x6 : FVec Ideal S256 .f32) : FVec Ideal S2048x256 .f32 :=
  subf (addf (Host.dotGeneral dot_S2048x256_S256x256_S2048x256_1_0_0_1_n_n none (proj x0 x1) (transpose S256x256 [1, 0] x5 transposes_S256x256_S256x256_1_0)) (broadcastInDim S2048x256 ![0, 1] bcast_S1x256_S2048x256_0_1 (broadcastInDim S1x256 ![1] bcast_S256_S1x256_1 x6))) (subf (proj x0 x3) (proj x0 x1))

/-- The kernel program's gradient with respect to W: 2⁻¹⁸ · (eᵀ · t). -/
def gradWK (e t : FVec Ideal S2048x256 .f32) : FVec Ideal S256x256 .f32 :=
  mulf (broadcastInDim S256x256 ![] bcast_S_S256x256 (constant S_ .f32 0x36800000#32)) (Host.dotGeneral dot_S256x2048_S2048x256_S256x256_1_0_0_1_n_n none (transpose S256x2048 [1, 0] e transposes_S2048x256_S256x2048_1_0) t)

/-- The kernel program's gradient with respect to b: 2⁻¹⁸ · Σₙ e[n, ·]. -/
def gradBK (e : FVec Ideal S2048x256 .f32) : FVec Ideal S256 .f32 :=
  mulf (broadcastInDim S256 ![] bcast_S_S256 (constant S_ .f32 0x36800000#32)) (Host.reduceAdd e (constant S_ .f32 0x00000000#32) reducesTo_S2048x256_S256_d0 h_S_)

/-- What the kernel program reads of its grid's padded [66560] result: its first 65792 entries. -/
def postK (r : FVec Ideal S66560 .f32) : FVec Ideal S65792 .f32 :=
  extractStridedSlice S65792 ![0] r slices_S66560_S65792_0

/-- The arrays the kernel program stages for its grid, from src, Wlr and blr: src and the zero-padded Wlr with their
    format changed (the identity on the extended reals), and the zero-padded blr. -/
def stagedSrc (x0 : FVec Ideal S2048x1024 .f32) : FVec Ideal S2048x1024 .bf16 := truncf .bf16 x0 bitsLt_bf16_f32
def stagedWlr (x7 : FVec Ideal S65792x1024 .f32) : FVec Ideal S66560x1024 .bf16 :=
  truncf .bf16 (pad S66560x1024 ![0, 0] ![768, 0] ![0, 0] x7 (sitofp .f32 (constantI S_ 32 0#32)) pads_S65792x1024_S66560x1024_07680_000 h_S_) bitsLt_bf16_f32
def stagedBlr (x8 : FVec Ideal S65792 .f32) : FVec Ideal S66560 .f32 :=
  pad S66560 ![0] ![768] ![0] x8 (sitofp .f32 (constantI S_ 32 0#32)) pads_S65792_S66560_07680 h_S_

/-- The common end of both programs, from the learned rates `post` and the gradients `gW`, `gb`:
    (test · (W − lr_mat ⊙ gW)ᵀ + (b − lr_bias ⊙ gb) + test) · theta_o. -/
def tail (x0 : FVec Ideal S2048x1024 .f32) (x2 : FVec Ideal S1024x256 .f32) (x4 : FVec Ideal S256x1024 .f32)
    (x5 : FVec Ideal S256x256 .f32) (x6 : FVec Ideal S256 .f32) (post : FVec Ideal S65792 .f32)
    (gW : FVec Ideal S256x256 .f32) (gb : FVec Ideal S256 .f32) : FVec Ideal S2048x1024 .f32 :=
  Host.dotGeneral dot_S2048x256_S256x1024_S2048x1024_1_0_0_1_n_n none (addf (addf (Host.dotGeneral dot_S2048x256_S256x256_S2048x256_1_0_0_1_n_n none (proj x0 x2) (transpose S256x256 [1, 0] (subf x5 (mulf (shapeCast S256x256 (extractStridedSlice S65536 ![0] post slices_S65792_S65536_0) shapeCasts_S65536_S256x256) gW)) transposes_S256x256_S256x256_1_0)) (broadcastInDim S2048x256 ![0, 1] bcast_S1x256_S2048x256_0_1 (broadcastInDim S1x256 ![1] bcast_S256_S1x256_1 (subf x6 (mulf (extractStridedSlice S256 ![65536] post slices_S65792_S256_65536) gb))))) (proj x0 x2)) x4

/-- What the grid writes, as one function of the three staged arrays: at entry j,
    (Σₙ σ((Σ_d x[n,d] · w[j,d]) + bias[j])) · f32(0.01)/2048. -/
def postArr (x : FVec Ideal S2048x1024 .bf16) (w : FVec Ideal S66560x1024 .bf16) (bias : FVec Ideal S66560 .f32) :
    FVec Ideal S66560 .f32 :=
  fun j => (∑ n : Fin 2048, Ideal.logistic ((∑ d : Fin 1024, x (ValueIdx.ix2 n d) * w (ValueIdx.ix2 (j 0) d)) + bias j))
    * Ideal.ofBits .f32 0x36A3D70A#32

end shared

/-! ## The reference program's spellings of the three stages that differ -/

section reference
open Cert.ReferenceIdeal
variable [Cert.ReferenceIdeal.Facts]
open Cert.ReferenceIdeal.Facts₀ Cert.ReferenceIdeal.Facts

/-- Automatic differentiation's gradient with respect to W: ((1/524288 · (2 · e))ᵀ · t), contracted over the rows and
    transposed twice. -/
def gradWR (e t : FVec Ideal S2048x256 .f32) : FVec Ideal S256x256 .f32 :=
  transpose S256x256 [1, 0] (transpose S256x256 [1, 0] (Host.dotGeneral dot_S2048x256_S2048x256_S256x256_0_0_1_1_n_n none (mulf (broadcastInDim S2048x256 ![] bcast_S_S2048x256 (Host.divf (constant S_ .f32 0x3F800000#32) (constant S_ .f32 0x49000000#32))) (mulf (broadcastInDim S2048x256 ![] bcast_S_S2048x256 (constant S_ .f32 0x40000000#32)) e)) t) transposes_S256x256_S256x256_1_0) transposes_S256x256_S256x256_1_0

/-- Automatic differentiation's gradient with respect to b: the column sums of (1/524288 · (2 · e)), laid out as a
    [1,256] row and summed again over that row's one entry. -/
def gradBR (e : FVec Ideal S2048x256 .f32) : FVec Ideal S256 .f32 :=
  Host.reduceAdd (shapeCast S1x256 (Host.reduceAdd (mulf (broadcastInDim S2048x256 ![] bcast_S_S2048x256 (Host.divf (constant S_ .f32 0x3F800000#32) (constant S_ .f32 0x49000000#32))) (mulf (broadcastInDim S2048x256 ![] bcast_S_S2048x256 (constant S_ .f32 0x40000000#32)) e)) (constant S_ .f32 0x00000000#32) reducesTo_S2048x256_S256_d0 h_S_) shapeCasts_S256_S1x256) (constant S_ .f32 0x00000000#32) reducesTo_S1x256_S256_d0 h_S_

/-- The reference's learned rates: the mean over the rows of f32(0.01) · 1/(1 + exp(−(src · Wlrᵀ + blr))). -/
def postR (x0 : FVec Ideal S2048x1024 .f32) (x7 : FVec Ideal S65792x1024 .f32) (x8 : FVec Ideal S65792 .f32) :
    FVec Ideal S65792 .f32 :=
  Host.divf (Host.reduceAdd (mulf (broadcastInDim S2048x65792 ![] bcast_S_S2048x65792 (constant S_ .f32 0x3C23D70A#32)) (Host.divf (broadcastInDim S2048x65792 ![] bcast_S_S2048x65792 (constant S_ .f32 0x3F800000#32)) (addf (broadcastInDim S2048x65792 ![] bcast_S_S2048x65792 (constant S_ .f32 0x3F800000#32)) (Host.exp (Host.negf (addf (Host.dotGeneral dot_S2048x1024_S1024x65792_S2048x65792_1_0_0_1_n_n none x0 (transpose S1024x65792 [1, 0] x7 transposes_S65792x1024_S1024x65792_1_0)) (broadcastInDim S2048x65792 ![0, 1] bcast_S1x65792_S2048x65792_0_1 (broadcastInDim S1x65792 ![1] bcast_S65792_S1x65792_1 x8)))))))) (constant S_ .f32 0x00000000#32) reducesTo_S2048x65792_S65792_d0 h_S_) (broadcastInDim S65792 ![] bcast_S_S65792 (constant S_ .f32 0x45000000#32))

end reference

end Cert.Spec

end
-- ==== Proof.RefValue.lean ====
/-
  The reference program's result, read through the shared vocabulary: its composed term of the nine argument arrays
  is the common end (`Spec.tail`) applied to the reference's own learned rates and gradients, the residual and the
  train view being the shared `Spec.resid` and `Spec.proj`. Nothing is computed here: the two sides are the same
  operations in the same order, the shape facts of the two programs being facts about the same literal shapes.
-/
import proofs.«157813_j45432164057777_1_alg».proof.Proof.Spec
import proofs.«157813_j45432164057777_1_alg».proof.Proof.Gen.ReferenceIdeal.Run

noncomputable section

namespace Cert.ReferenceIdeal.RefValue

open Idealize.ShloMosaic Idealize.ShloMosaic.TcCoe Idealize.SL.Sem Cert.ReferenceIdeal

variable [Cert.KernelIdeal.Facts] [Cert.ReferenceIdeal.Facts]

/-- The reference's result is the common end of the reference's learned rates and gradients. -/
theorem res_eq_tail (m : (ℓ : Loc nD τ sig) → Buf (Elt Ideal) ℓ) (c : Dev nD) :
    Cert.ReferenceIdeal.Value.res_main_v53 (F := Ideal) m c
      = Cert.Spec.tail (m ((c.tc : Thread nD τ).loc main_arg0)) (m ((c.tc : Thread nD τ).loc main_arg2))
          (m ((c.tc : Thread nD τ).loc main_arg4)) (m ((c.tc : Thread nD τ).loc main_arg5)) (m ((c.tc : Thread nD τ).loc main_arg6))
          (Cert.Spec.postR (m ((c.tc : Thread nD τ).loc main_arg0)) (m ((c.tc : Thread nD τ).loc main_arg7)) (m ((c.tc : Thread nD τ).loc main_arg8)))
          (Cert.Spec.gradWR
            (Cert.Spec.resid (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)))
            (Cert.Spec.proj (m ((c.tc : Thread nD τ).loc main_arg0)) (m ((c.tc : Thread nD τ).loc main_arg1))))
          (Cert.Spec.gradBR
            (Cert.Spec.resid (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)))) := by
  unfold Cert.ReferenceIdeal.Value.res_main_v53 Cert.Spec.tail Cert.Spec.postR Cert.Spec.gradWR Cert.Spec.gradBR Cert.Spec.resid Cert.Spec.proj
  rfl

end Cert.ReferenceIdeal.RefValue

end
-- ==== Proof.KernelTail.lean ====
/-
  The kernel program's result, read through the shared vocabulary. After the grid, the program's remaining host
  operations read the grid's [66560] output array and the argument arrays only; composed, they are the common end
  (`Spec.tail`) applied to the first 65792 entries of the grid's output, and to the kernel's gradients
  2⁻¹⁸·(eᵀ·train) and 2⁻¹⁸·Σₙ e of the shared residual e.
-/
import proofs.«157813_j45432164057777_1_alg».proof.Proof.Spec
import proofs.«157813_j45432164057777_1_alg».proof.Proof.Gen.KernelIdeal.Frame
import Idealize.ShloMosaic.Lib.StableHlo.Run

set_option maxRecDepth 16384

noncomputable section

namespace Cert.KernelIdeal.TailValue

open Idealize.ShloMosaic Idealize.ShloMosaic.TcCoe Idealize.SL.Sem Idealize.ShloMosaic.StableHlo Cert.KernelIdeal Cert.KernelIdeal.Gen

variable [Cert.KernelIdeal.Facts]

set_option maxHeartbeats 40000000 in
/-- The program's result after the host operations that follow the grid. -/
theorem tail_eq (m : (ℓ : Loc nD τ sig) → Buf (Elt Ideal) ℓ) (c : Dev nD) :
    Pipeline.afterTail₀ cfgs (Gen.dats (F := Ideal) m) 0 (Gen.V0 m) [hostOps1] c main_v36
      = Cert.Spec.tail (m ((c.tc : Thread nD τ).loc main_arg0)) (m ((c.tc : Thread nD τ).loc main_arg2))
          (m ((c.tc : Thread nD τ).loc main_arg4)) (m ((c.tc : Thread nD τ).loc main_arg5)) (m ((c.tc : Thread nD τ).loc main_arg6))
          (Cert.Spec.postK ((Gen.dats (F := Ideal) m 0 c).arrAt 3 cfg0.N))
          (Cert.Spec.gradWK
            (Cert.Spec.resid (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)))
            (Cert.Spec.proj (m ((c.tc : Thread nD τ).loc main_arg0)) (m ((c.tc : Thread nD τ).loc main_arg1))))
          (Cert.Spec.gradBK
            (Cert.Spec.resid (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)))) := by
  unfold Pipeline.afterTail₀
  show StableHlo.after hostOps1 _ (Proc.devRef .tc main_v36) = _
  after_results_simp
  have h0 : Pipeline.withArrays (cfgs 0).spec c (V0 m c) (fun w => (dats m 0 c).arrAt w (cfgs 0).N) (Proc.tc.devRef main_arg0) = m ((c.tc : Thread nD τ).loc main_arg0) :=
    (Pipeline.withArrays_of_ne _ c (V0 m c) _ main_arg0 (by exact (by decide : ∀ w, Pipeline.arrRef spec0 w ≠ main_arg0))).trans (V_main_arg0 m c)
  have h1 : Pipeline.withArrays (cfgs 0).spec c (V0 m c) (fun w => (dats m 0 c).arrAt w (cfgs 0).N) (Proc.tc.devRef main_arg1) = m ((c.tc : Thread nD τ).loc main_arg1) :=
    (Pipeline.withArrays_of_ne _ c (V0 m c) _ main_arg1 (by exact (by decide : ∀ w, Pipeline.arrRef spec0 w ≠ main_arg1))).trans (V_main_arg1 m c)
  have h2 : Pipeline.withArrays (cfgs 0).spec c (V0 m c) (fun w => (dats m 0 c).arrAt w (cfgs 0).N) (Proc.tc.devRef main_arg2) = m ((c.tc : Thread nD τ).loc main_arg2) :=
    (Pipeline.withArrays_of_ne _ c (V0 m c) _ main_arg2 (by exact (by decide : ∀ w, Pipeline.arrRef spec0 w ≠ main_arg2))).trans (V_main_arg2 m c)
  have h3 : Pipeline.withArrays (cfgs 0).spec c (V0 m c) (fun w => (dats m 0 c).arrAt w (cfgs 0).N) (Proc.tc.devRef main_arg3) = m ((c.tc : Thread nD τ).loc main_arg3) :=
    (Pipeline.withArrays_of_ne _ c (V0 m c) _ main_arg3 (by exact (by decide : ∀ w, Pipeline.arrRef spec0 w ≠ main_arg3))).trans (V_main_arg3 m c)
  have h4 : Pipeline.withArrays (cfgs 0).spec c (V0 m c) (fun w => (dats m 0 c).arrAt w (cfgs 0).N) (Proc.tc.devRef main_arg4) = m ((c.tc : Thread nD τ).loc main_arg4) :=
    (Pipeline.withArrays_of_ne _ c (V0 m c) _ main_arg4 (by exact (by decide : ∀ w, Pipeline.arrRef spec0 w ≠ main_arg4))).trans (V_main_arg4 m c)
  have h5 : Pipeline.withArrays (cfgs 0).spec c (V0 m c) (fun w => (dats m 0 c).arrAt w (cfgs 0).N) (Proc.tc.devRef main_arg5) = m ((c.tc : Thread nD τ).loc main_arg5) :=
    (Pipeline.withArrays_of_ne _ c (V0 m c) _ main_arg5 (by exact (by decide : ∀ w, Pipeline.arrRef spec0 w ≠ main_arg5))).trans (V_main_arg5 m c)
  have h6 : Pipeline.withArrays (cfgs 0).spec c (V0 m c) (fun w => (dats m 0 c).arrAt w (cfgs 0).N) (Proc.tc.devRef main_arg6) = m ((c.tc : Thread nD τ).loc main_arg6) :=
    (Pipeline.withArrays_of_ne _ c (V0 m c) _ main_arg6 (by exact (by decide : ∀ w, Pipeline.arrRef spec0 w ≠ main_arg6))).trans (V_main_arg6 m c)
  have hv4 : Pipeline.withArrays (cfgs 0).spec c (V0 m c) (fun w => (dats m 0 c).arrAt w (cfgs 0).N) (Proc.tc.devRef main_v4) = (dats m 0 c).arrAt 3 cfg0.N :=
    Pipeline.withArrays_arr spec0 launch0.win.arr_inj c _ _ 3
  rw [h0, h1, h2, h3, h4, h5, h6, hv4]
  unfold Cert.Spec.tail Cert.Spec.postK Cert.Spec.gradWK Cert.Spec.gradBK Cert.Spec.resid Cert.Spec.proj
  rfl

end Cert.KernelIdeal.TailValue

end
-- ==== Proof.HostPrefix.lean ====
/-
  What the grid finds in its three input arrays. Before the grid the program pads Wlr and blr with 768 zero rows,
  and changes the float format of src and of the padded Wlr — on the extended reals a change of format is the
  identity. So the staged arrays are the shared `Spec.stagedSrc`, `Spec.stagedWlr`, `Spec.stagedBlr` of the argument
  arrays src, Wlr, blr.
-/
import proofs.«157813_j45432164057777_1_alg».proof.Proof.Spec
import proofs.«157813_j45432164057777_1_alg».proof.Proof.Gen.KernelIdeal.Frame
import Idealize.ShloMosaic.Lib.StableHlo.Run

set_option maxRecDepth 16384

noncomputable section

namespace Cert.KernelIdeal.Staged

open Idealize.ShloMosaic Idealize.ShloMosaic.TcCoe Idealize.SL.Sem Idealize.ShloMosaic.StableHlo Cert.KernelIdeal Cert.KernelIdeal.Gen

variable [Cert.KernelIdeal.Facts]

/-- The grid's first input array is src with its format changed. -/
theorem staged_src (m : (ℓ : Loc nD τ sig) → Buf (Elt Ideal) ℓ) (c : Dev nD) :
    (Gen.V (F := Ideal) m c main_v2 : S2048x1024.Idx → EReal) = Cert.Spec.stagedSrc (m ((c.tc : Thread nD τ).loc main_arg0)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The grid's second input array is Wlr padded with 768 zero rows, its format changed. -/
theorem staged_wlr (m : (ℓ : Loc nD τ sig) → Buf (Elt Ideal) ℓ) (c : Dev nD) :
    (Gen.V (F := Ideal) m c main_v3 : S66560x1024.Idx → EReal) = Cert.Spec.stagedWlr (m ((c.tc : Thread nD τ).loc main_arg7)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The grid's third input array is blr padded with 768 zeros. -/
theorem staged_blr (m : (ℓ : Loc nD τ sig) → Buf (Elt Ideal) ℓ) (c : Dev nD) :
    (Gen.V (F := Ideal) m c main_v1 : S66560.Idx → EReal) = Cert.Spec.stagedBlr (m ((c.tc : Thread nD τ).loc main_arg8)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

end Cert.KernelIdeal.Staged

end
-- ==== Proof.PostBody.lean ====
/-
  The arithmetic of one grid point of the kernel, read entry by entry over the extended reals.

  A grid point holds three blocks: x0, the [2048,1024] array of rows; x1, a [1024,1024] block of weight rows; x2, the
  [1024] block of biases. It forms the [2048,1024] array of products x0 · x1ᵀ (both operands contracted over their
  second axis), adds the bias row to every row, takes the logistic of every entry, sums each column over the 2048 rows
  and multiplies by one constant. So entry j of what it writes is
      (Σₙ σ((Σ_d x0[n,d] · x1[j,d]) + x2[j])) · c,     c the constant word 0x36A3D70A.
  The steps: the contraction at an entry is a sum over the one contracted coordinate; the bias, laid out as one row
  and repeated over the rows, read at (n, j) is x2[j]; the reduction over the first axis at column j is the sum over
  n of the entries (n, j).
-/
import proofs.«157813_j45432164057777_1_alg».proof.Proof.Spec
import proofs.«157813_j45432164057777_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PostValue

open Cert.KernelIdeal Cert.KernelIdeal.Gen Idealize.ShloMosaic Idealize.ShloMosaic.ValueIdx
variable [Cert.KernelIdeal.Facts]
open Cert.KernelIdeal.Facts₀ Cert.KernelIdeal.Facts

/-- The left operand's index at output entry i and contraction coordinate q: its row is i's row … -/
theorem lhs_0 (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
/-- … and its column is q. -/
theorem lhs_1 (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
/-- The right operand's index: its row is i's column (the weight row that output column belongs to) … -/
theorem rhs_0 (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
/-- … and its column is q: both operands are contracted over their second axis. -/
theorem rhs_1 (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- The contraction into the zero array, at entry (n, p): Σ_d x0[n,d] · x1[p,d]. -/
theorem matmul_at (x0 : FVec Ideal S2048x1024 .bf16) (x1 : FVec Ideal S1024x1024 .bf16) (n : Fin 2048) (p : Fin 1024) :
    matmul dot_S2048x1024_S1024x1024_S2048x1024_1_1_0_0_n_n none x0 x1 (constant (F := Ideal) S2048x1024 .f32 0x00000000#32) (ix2 n p)
      = ∑ d : Fin 1024, x0 (ix2 n d) * x1 (ix2 p d) := by
  simp only [matmul]
  rw [Ideal.matmul_constant_zero_apply, ← Equiv.sum_comp (ValueIdx.contrEquiv1 dot_S2048x1024_S1024x1024_S2048x1024_1_1_0_0_n_n 1024 rfl rfl).symm]
  refine Finset.sum_congr rfl fun k _ => ?_
  have hk := ValueIdx.contrEquiv1_symm_val dot_S2048x1024_S1024x1024_S2048x1024_1_1_0_0_n_n 1024 rfl rfl k
  have el : dot_S2048x1024_S1024x1024_S2048x1024_1_1_0_0_n_n.lhsIdx (ix2 n p) ((ValueIdx.contrEquiv1 dot_S2048x1024_S1024x1024_S2048x1024_1_1_0_0_n_n 1024 rfl rfl).symm k) = ix2 n k := funext fun a => Fin.ext (by
    match a with
    | ⟨0, _⟩ => exact lhs_0 _ _
    | ⟨1, _⟩ => exact (lhs_1 _ _).trans hk)
  have er : dot_S2048x1024_S1024x1024_S2048x1024_1_1_0_0_n_n.rhsIdx (ix2 n p) ((ValueIdx.contrEquiv1 dot_S2048x1024_S1024x1024_S2048x1024_1_1_0_0_n_n 1024 rfl rfl).symm k) = ix2 p k := funext fun a => Fin.ext (by
    match a with
    | ⟨0, _⟩ => exact rhs_0 _ _
    | ⟨1, _⟩ => exact (rhs_1 _ _).trans hk)
  rw [el, er]

/-- The bias row: [1024] read as [1024], laid out as one row [1,1024], repeated over the 2048 rows. -/
theorem bias_at (x2 : FVec Ideal S1024 .f32) (h1 : S1024.ShapeCasts S1024) (h2 : S1024.ShapeCasts S1x1024)
    (h3 : S1x1024.Broadcasts S2048x1024) (n : Fin 2048) (j : S1024.Idx) :
    broadcastTo S2048x1024 (shapeCast S1x1024 (shapeCast S1024 x2 h1) h2) h3 (ix2 n (j 0)) = x2 j := by
  rw [shapeCast_self]
  refine (broadcastTo_1b_ab_apply _ h3 n (j 0)).trans ?_
  refine (shapeCast_a_1a_apply x2 h2 (0 : Fin 1) (j 0)).trans ?_
  exact congrArg x2 (eq_ix1 j).symm

/-- The sum over the rows: the reduction over axis 0 of a [2048,1024] array, at column j. -/
theorem colsum_at (v : FVec Ideal S2048x1024 .f32) (h : S2048x1024.Reduces [0] S1024) (hφ : FKind.Formats .f32)
    (hacc : (0x00000000#32 : BitVec 32) = FKind.add.neutral .f32 hφ) (j : S1024.Idx) :
    multiReduction .add [0] S1024 v 0x00000000#32 h hφ hacc j = ∑ n : Fin 2048, v (ix2 n (j 0)) := by
  refine (Ideal.multiReduction_add_single v _ h hφ hacc j).trans ?_
  refine Finset.sum_congr rfl fun n _ => congrArg v ?_
  funext a
  match a with
  | ⟨0, _⟩ => rfl
  | ⟨1, _⟩ => rfl

/-- The body's arithmetic at entry j of its block: the sum over the 2048 rows n of the logistic of
    (Σ_d x0[n,d]·x1[j,d]) + x2[j], times the constant word. -/
theorem pay_apply (x0 : Vec Ideal S2048x1024 .bf16) (x1 : Vec Ideal S1024x1024 .bf16) (x2 : Vec Ideal S1024 .f32) (j : S1024.Idx) :
    Gen.k0_pay1 (F := Ideal) x0 x1 x2 j = (∑ n : Fin 2048, Ideal.logistic ((∑ d : Fin 1024, x0 (ValueIdx.ix2 n d) * x1 (ValueIdx.ix2 (j 0) d)) + x2 j)) * Ideal.ofBits .f32 0x36A3D70A#32 := by
  unfold Gen.k0_pay1
  dsimp only
  refine (mulf_apply _ _ j).trans ?_
  refine congrArg₂ (· * ·) ?_ rfl
  refine (colsum_at _ _ _ _ j).trans ?_
  refine Finset.sum_congr rfl fun n _ => ?_
  show Ideal.logistic (matmul dot_S2048x1024_S1024x1024_S2048x1024_1_1_0_0_n_n none (shapeCast S2048x1024 x0 _) (shapeCast S1024x1024 x1 _) (constant (F := Ideal) S2048x1024 .f32 0x00000000#32) (ix2 n (j 0)) + broadcastTo S2048x1024 _ _ (ix2 n (j 0))) = _
  refine congrArg Ideal.logistic (congrArg₂ (· + ·) ?_ (bias_at x2 _ _ _ n j))
  rw [shapeCast_self, shapeCast_self]
  exact matmul_at x0 x1 n (j 0)

end Cert.KernelIdeal.PostValue
end
-- ==== Proof.PostBlocks.lean ====
/-
  From the grid's blocks to the whole output array.

  The grid has 65 points. Point t holds the whole [2048,1024] array of rows, rows t·1024 … t·1024 + 1023 of the
  [66560,1024] array of weight rows and the same range of the [66560] array of biases, and writes the same range of
  the [66560] output. Entry y of what it writes depends on every row of the first array, on weight row t·1024 + y
  and on bias t·1024 + y only, so it is entry t·1024 + y of ONE function of the three whole arrays
  (`Cert.Spec.postArr`): each written block is that function's restriction to the block. The 65 blocks of 1024 entries
  fill the 66560 entries (entry r lies in block r / 1024), so after the run the output array is that function.
-/
import proofs.«157813_j45432164057777_1_alg».proof.Proof.PostBody
import proofs.«157813_j45432164057777_1_alg».proof.Proof.Gen.KernelIdeal.Frame
import Idealize.ShloMosaic.Lib.Pipeline.Value
import Idealize.ShloMosaic.Lib.Tactic

noncomputable section

namespace Cert.KernelIdeal.PostValue

open Cert.KernelIdeal Cert.KernelIdeal.Gen Idealize.ShloMosaic Idealize.ShloMosaic.TcCoe Idealize.SL.Sem Idealize.ShloMosaic.ValueIdx
open Idealize.ShloMosaic.Pipeline (Dat)

/-- A rank-1 block read or written whole starts at offset zero, -/
theorem offsets_zero1 : (![0] : Fin 1 → Nat) = fun _ => 0 := funext fun a => by fin_cases a <;> rfl
/-- and so does a rank-2 one. -/
theorem offsets_zero2 : (![0, 0] : Fin 2 → Nat) = fun _ => 0 := funext fun a => by fin_cases a <;> rfl

/-- The printed index maps, decided over the 65 grid points: the rows' block is always block (0,0); the weights'
    block is (t, 0), the biases' block t and the output's block t. -/
theorem block_index : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 1) = t.val ∧ win0_3.index t (0 : Fin 1) = t.val :=
  (by decide +kernel : ∀ t : Fin grid0.N, _)

variable [Cert.KernelIdeal.Facts]
open Cert.KernelIdeal.Facts₀ Cert.KernelIdeal.Facts

/-- One grid point's result against the whole-array function: if the point's three blocks are the restrictions of
    the staged arrays X, W, B that entry i of the array needs (every row of X; row i of W; entry i of B), then entry
    y of what the point computes is entry i of the whole-array function. -/
theorem pay_eq_postArr (X : FVec Ideal S2048x1024 .bf16) (W : FVec Ideal S66560x1024 .bf16) (B : FVec Ideal S66560 .f32)
    (x0 : Vec Ideal S2048x1024 .bf16) (x1 : Vec Ideal S1024x1024 .bf16) (x2 : Vec Ideal S1024 .f32)
    (y : S1024.Idx) (i : S66560.Idx)
    (h0 : ∀ (n : Fin 2048) (d : Fin 1024), x0 (ix2 n d) = X (ix2 n d))
    (h1 : ∀ d : Fin 1024, x1 (ix2 (y 0) d) = W (ix2 (i 0) d))
    (h2 : x2 y = B i) :
    Gen.k0_pay1 (F := Ideal) x0 x1 x2 y = Cert.Spec.postArr X W B i := by
  rw [pay_apply]
  unfold Cert.Spec.postArr
  simp only [h0, h1, h2]

variable (m : (ℓ : Loc nD τ sig) → Buf (Elt Ideal) ℓ)

/-- WHAT POINT t WRITES BACK is block t of the whole-array function of the three staged arrays as the grid finds
    them: each input block is read where the output block's range says (a block's coordinate is its block index
    times the block size plus the coordinate inside the block). -/
theorem written_block (c : Dev nD) (t : Fin cfg0.N) :
    (Gen.dats (F := Ideal) m 0 c).flushed 3 t = ((cfg0.win 3).blk t).view.read (Elt Ideal) (Cert.Spec.postArr (Gen.V m c main_v2) (Gen.V m c main_v3) (Gen.V m c main_v1)) := by
  show (cfg0.win 3).cut (grid0.coords t) ((Gen.dats (F := Ideal) m 0 c).after 3 t) = _
  rw [after0_3]
  unfold out0_3
  rw [View.canon_unit_zero offsets_zero1]
  simp only [View.ld_unit_zero (S := S2048x1024) offsets_zero2, View.ld_unit_zero (S := S1024x1024) offsets_zero2, View.ld_unit_zero (S := S1024) offsets_zero1]
  obtain ⟨e0, e1, e2, e3, e4, e5⟩ := block_index t
  refine funext fun (y : S1024.Idx) => ?_
  show Gen.k0_pay1 (F := Ideal) (iblk m c 0 t) (iblk m c 1 t) (iblk m c 2 t) y = Cert.Spec.postArr (V m c main_v2) (V m c main_v3) (V m c main_v1) (((cfg0.win 3).blk t).view.emb y)
  refine pay_eq_postArr (V m c main_v2) (V m c main_v3) (V m c main_v1) (iblk m c 0 t) (iblk m c 1 t) (iblk m c 2 t) y (((cfg0.win 3).blk t).view.emb y) (fun n d => ?_) (fun d => ?_) ?_
  · show V m c main_v2 (((cfg0.win 0).blk t).view.emb (ix2 n d)) = V m c main_v2 (ix2 n d)
    refine congrArg (V m c main_v2) (funext fun a => Fin.ext ?_)
    match a with
    | ⟨0, _⟩ => show win0_0.index t (0 : Fin 2) * 2048 + 1 * n.val = n.val; omega
    | ⟨1, _⟩ => show win0_0.index t (1 : Fin 2) * 1024 + 1 * d.val = d.val; omega
  · show V m c main_v3 (((cfg0.win 1).blk t).view.emb (ix2 (y 0) d)) = V m c main_v3 (ix2 ((show S66560.Idx from ((cfg0.win 3).blk t).view.emb y) 0) d)
    refine congrArg (V m c main_v3) (funext fun a => Fin.ext ?_)
    match a with
    | ⟨0, _⟩ => show win0_1.index t (0 : Fin 2) * 1024 + 1 * (y 0).val = win0_3.index t (0 : Fin 1) * 1024 + 1 * (y 0).val; omega
    | ⟨1, _⟩ => show win0_1.index t (1 : Fin 2) * 1024 + 1 * d.val = d.val; omega
  · show V m c main_v1 (((cfg0.win 2).blk t).view.emb y) = V m c main_v1 (((cfg0.win 3).blk t).view.emb y)
    refine congrArg (V m c main_v1) (funext fun a => Fin.ext ?_)
    match a with
    | ⟨0, _⟩ => show win0_2.index t (0 : Fin 1) * 1024 + 1 * (y 0).val = win0_3.index t (0 : Fin 1) * 1024 + 1 * (y 0).val; omega

/-- An index of the output array is in point t's block iff it lies in the block's range: entries t·1024 … t·1024 + 1023. -/
theorem mem_block (t : Fin cfg0.N) (i : S66560.Idx) :
    i ∈ ((cfg0.win 3).blk t).view.set ↔ ∀ a : Fin 1, win0_3.index t a * S1024.size a ≤ (i a).val ∧ (i a).val < win0_3.index t a * S1024.size a + S1024.size a := by
  show i ∈ ((View.whole main_v4).slice (win0_3.rect t)).set ↔ _
  rw [View.set_slice_whole, Rect.mem_set_unit]
  exact Iff.rfl

/-- The 65 blocks of 1024 entries fill the 66560 entries: entry r is written by point r / 1024. -/
theorem blocks_cover (i : S66560.Idx) : ∃ t : Fin cfg0.N, (cfg0.win 3).flush t = true ∧ i ∈ ((cfg0.win 3).blk t).view.set := by
  have hi : (i 0).val < 66560 := (i 0).isLt
  have hN : cfg0.N = 65 := N_0
  have ht : (i 0).val / 1024 < cfg0.N := by rw [hN]; omega
  obtain ⟨-, -, -, -, -, e5⟩ := block_index ⟨(i 0).val / 1024, ht⟩
  refine ⟨⟨(i 0).val / 1024, ht⟩, flush0_3 _, ?_⟩
  rw [mem_block]
  intro a
  match a with
  | ⟨0, _⟩ =>
    show win0_3.index ⟨(i 0).val / 1024, ht⟩ (0 : Fin 1) * 1024 ≤ (i 0).val ∧ (i 0).val < win0_3.index ⟨(i 0).val / 1024, ht⟩ (0 : Fin 1) * 1024 + 1024
    have e : win0_3.index ⟨(i 0).val / 1024, ht⟩ (0 : Fin 1) = (i 0).val / 1024 := e5
    omega

/-- THE OUTPUT ARRAY after the grid's run is the whole-array function of the three staged arrays. -/
theorem final (c : Dev nD) :
    (Gen.dats (F := Ideal) m 0 c).arrAt 3 cfg0.N = Cert.Spec.postArr (Gen.V m c main_v2) (Gen.V m c main_v3) (Gen.V m c main_v1) :=
  (Gen.dats (F := Ideal) m 0 c).arrAt_eq_of_cover 3 _ (fun t _ => written_block m c t) blocks_cover

end Cert.KernelIdeal.PostValue
end
-- ==== Proof.PostWords.lean ====
/-
  The learned-rates stage: its f32 words as extended reals, and the law that joins its two spellings.

  The words. An f32 pattern with sign 0, exponent field E (neither 0 nor 255) and fraction field T denotes
  (2²³ + T) · 2^(E − 127 − 23). For 0x3C23D70A (the f32 nearest 0.01): E = 120, T = 0x23D70A = 2348810, so the value
  is 10737418 · 2⁻³⁰. For 0x36A3D70A: E = 109 and the same T, so the value is 10737418 · 2⁻⁴¹, which is the former
  divided by 2¹¹ = 2048 exactly. 0x45000000 (E = 138, T = 0) is 2²³ · 2⁻¹² = 2048; 0x3F800000 is 1; 0x00000000 is 0.

  The law. For any extended reals s₀, …, s_{N−1}, each σ(sₙ) = 1 / (1 + exp(−sₙ)) is a real in [0, 1] (0 at −∞, 1 at
  +∞), so both sides below are finite sums and products of reals and the identity is the real one
      (Σₙ σ(sₙ)) · (c / 2048) = (0 + Σₙ c · σ(sₙ)) / 2048,      c = 10737418 · 2⁻³⁰.
  Nothing is assumed of the sₙ.
-/
import Mathlib
import Idealize.ShloMosaic.PureOps.Ideal

noncomputable section

namespace Cert.PostWords

open Idealize.ShloMosaic

/-! ## The words -/

/-- 0x3C23D70A, the f32 nearest 0.01, denotes 10737418 / 2³⁰. -/
theorem ofBits_rate : Ideal.ofBits .f32 0x3C23D70A#32 = ((10737418 / 2 ^ 30 : ℝ) : EReal) := by
  simp [Ideal.ofBits, Ideal.ieee, -EReal.coe_mul]; norm_num

/-- 0x36A3D70A, the same significand eleven binades lower, denotes 10737418 / 2⁴¹. -/
theorem ofBits_rateK : Ideal.ofBits .f32 0x36A3D70A#32 = ((10737418 / 2 ^ 41 : ℝ) : EReal) := by
  simp [Ideal.ofBits, Ideal.ieee, -EReal.coe_mul]; norm_num

/-- 0x45000000 denotes 2048. -/
theorem ofBits_2048 : Ideal.ofBits .f32 0x45000000#32 = ((2048 : ℝ) : EReal) := by
  simp [Ideal.ofBits, Ideal.ieee, -EReal.coe_mul]; norm_num

/-- 0x3F800000 denotes 1. -/
theorem ofBits_one : Ideal.ofBits .f32 0x3F800000#32 = ((1 : ℝ) : EReal) := by
  simp [Ideal.ofBits, Ideal.ieee, -EReal.coe_mul]; norm_num

/-- 0x00000000 denotes 0. -/
theorem ofBits_zero : Ideal.ofBits .f32 0x00000000#32 = ((0 : ℝ) : EReal) := by
  simp [Ideal.ofBits, Ideal.ieee]

/-- The second word is the first divided by 2048, as reals. -/
theorem rateK_eq : (10737418 / 2 ^ 41 : ℝ) = (10737418 / 2 ^ 30 : ℝ) / 2048 := by norm_num

/-! ## The law -/

/-- The logistic function of any extended real is a real: 0 at −∞, 1 / (1 + exp(−r)) at a real r, 1 at +∞. -/
theorem logistic_isReal (x : EReal) : ∃ r : ℝ, Ideal.logistic x = (r : EReal) := by
  induction x using EReal.rec with
  | bot => exact ⟨0, by rw [Ideal.logistic_bot, EReal.coe_zero]⟩
  | coe r => exact ⟨(1 + Real.exp (-r))⁻¹, Ideal.logistic_coe r⟩
  | top => exact ⟨1, by rw [Ideal.logistic_top, EReal.coe_one]⟩

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- Scaling the sum of the logistic values by c / 2048 is dividing by 2048 the sum, from 0, of c times each logistic
    value — at every family of extended reals, of any length. -/
theorem post_law {N : ℕ} (s : Fin N → EReal) :
    (∑ n, Ideal.logistic (s n)) * Ideal.ofBits .f32 0x36A3D70A#32
      = Ideal.div (Ideal.ofBits .f32 0x00000000#32 + ∑ n, Ideal.ofBits .f32 0x3C23D70A#32 * Ideal.logistic (s n))
          (Ideal.ofBits .f32 0x45000000#32) := by
  choose r hr using fun k => logistic_isReal (s k)
  simp only [hr]
  rw [ofBits_rateK, ofBits_rate, ofBits_zero, ofBits_2048, Ideal.div_coe (by norm_num : (2048 : ℝ) ≠ 0)]
  simp only [← EReal.coe_mul, ← coe_sum, ← EReal.coe_add]
  refine congrArg _ ?_
  rw [← Finset.mul_sum]
  ring

end Cert.PostWords

end
-- ==== Proof.PostRef.lean ====
/-
  The learned-rates stage as the reference spells it, read at one entry.

  At entry m of its [65792] result the reference computes
      (0 + Σₙ c · (1 / (1 + exp(−pre[n, m])))) / 2048,     pre[n, m] = (Σ_d src[n, d] · Wlr[m, d]) + blr[m],
  over the 2048 rows n and the 1024 columns d, with c the f32 nearest 0.01: the contraction is against the transpose
  of Wlr, so its right factor is Wlr at (m, d); the bias is broadcast along the rows; the constants are broadcast
  scalars; the row sum starts from the word 0. On the extended reals 1 / (1 + exp(−p)) with the word 1.0 for both ones
  is the logistic function of p. The second statement joins this to the other spelling of the stage,
  (Σₙ σ(pre[n, m])) · (c / 2048), by the law of the words. Nothing is assumed of the inputs.
-/
import proofs.«157813_j45432164057777_1_alg».proof.Proof.Spec
import proofs.«157813_j45432164057777_1_alg».proof.Proof.Gen.ReferenceIdeal.Read
import proofs.«157813_j45432164057777_1_alg».proof.Proof.PostWords

noncomputable section

namespace Cert.PostRef

open Idealize.ShloMosaic
open Cert.ReferenceIdeal
variable [Cert.ReferenceIdeal.Facts]
open Cert.ReferenceIdeal.Facts₀ Cert.ReferenceIdeal.Facts

/-- The stage is, operation for operation, the value the reference's last division of this stage writes (the two
    terms differ only in which proofs of the shape relations they cite). -/
theorem postR_eq_val (x0 : FVec Ideal S2048x1024 .f32) (x7 : FVec Ideal S65792x1024 .f32) (x8 : FVec Ideal S65792 .f32) :
    Cert.Spec.postR x0 x7 x8 = Cert.ReferenceIdeal.Read.val_main_v39 (F := Ideal) x0 x7 x8 := rfl

/-- The word 0x3F800000 denotes 1. -/
theorem ofBits_one_f32 : Ideal.ofBits .f32 0x3F800000#32 = 1 := IdealRules.sign_bit.ideal_onePat .f32

/-- 1.0 / (1.0 + exp(−p)), the ones spelled as the word 1.0, is the logistic function of p. -/
theorem logistic_spelled (p : EReal) :
    Ideal.div (Ideal.ofBits .f32 0x3F800000#32) (Ideal.ofBits .f32 0x3F800000#32 + Ideal.exp (-p)) = Ideal.logistic p := by
  rw [ofBits_one_f32]; rfl

/-- The reference's learned rate at entry i: the sum from 0 over the rows n of c · σ((Σ_d src[n,d] · Wlr[i,d]) + blr[i]),
    divided by 2048. -/
theorem postR_apply (x0 : FVec Ideal S2048x1024 .f32) (x7 : FVec Ideal S65792x1024 .f32) (x8 : FVec Ideal S65792 .f32) (i : S65792.Idx) :
    Cert.Spec.postR x0 x7 x8 i = Ideal.div (Ideal.ofBits .f32 0x00000000#32 + ∑ n : Fin 2048, Ideal.ofBits .f32 0x3C23D70A#32 * Ideal.logistic ((∑ d : Fin 1024, x0 (ValueIdx.ix2 n d) * x7 (ValueIdx.ix2 (i 0) d)) + x8 i)) (Ideal.ofBits .f32 0x45000000#32) := by
  rw [postR_eq_val]
  -- the last division, the row sum from the word 0, the broadcast divisor
  rw [Read.val_main_v39_apply, Read.val_main_v37_apply, Read.val_main_v38_apply, Read.val_main_cst_10_apply, Read.val_main_cst_9_apply]
  refine congrArg (fun t => Ideal.div (Ideal.ofBits .f32 0x00000000#32 + t) (Ideal.ofBits .f32 0x45000000#32)) (Finset.sum_congr rfl fun n _ => ?_)
  -- one summand, at row n: c · (1 / (1 + exp(−((Σ_d …) + bias))))
  rw [Read.val_main_v36_apply, Read.val_main_v35_apply, Read.val_main_cst_8_apply, Read.val_main_v34_apply, Read.val_main_v33_apply, Read.val_main_cst_7_apply, Read.val_main_v32_apply, Read.val_main_v31_apply, Read.val_main_cst_6_apply, Read.val_main_v30_apply, Read.val_main_v29_apply, Read.val_main_v28_apply, Read.val_main_v25_apply, Read.val_main_v27_apply, Read.val_main_v26_apply]
  simp only [Read.val_main_v24_apply]
  -- the indices the layout operations read at: (n, d) of src, (i, d) of Wlr through the transpose, i of blr
  have e0 : ∀ d : Fin 1024, Read.lidx_main_v25 (Read.idx_main_v37 i n) d = ValueIdx.ix2 n d := fun d =>
    funext fun a => by match a with | ⟨0, _⟩ => rfl | ⟨1, _⟩ => rfl
  have e1 : ∀ d : Fin 1024, Read.idx_main_v24 (Read.ridx_main_v25 (Read.idx_main_v37 i n) d) = ValueIdx.ix2 (i 0) d := fun d =>
    funext fun a => by match a with | ⟨0, _⟩ => rfl | ⟨1, _⟩ => rfl
  have e2 : Read.idx_main_v26 (Read.idx_main_v27 (Read.idx_main_v37 i n)) = i :=
    funext fun a => by match a with | ⟨0, _⟩ => rfl
  rw [e2]
  simp only [e0, e1]
  exact congrArg (Ideal.ofBits .f32 0x3C23D70A#32 * ·) (logistic_spelled _)

/-- The same entry in the other spelling of the stage: the sum over the rows of the logistic values, times c / 2048. -/
theorem postR_apply_scaled (x0 : FVec Ideal S2048x1024 .f32) (x7 : FVec Ideal S65792x1024 .f32) (x8 : FVec Ideal S65792 .f32) (i : S65792.Idx) :
    Cert.Spec.postR x0 x7 x8 i = (∑ n : Fin 2048, Ideal.logistic ((∑ d : Fin 1024, x0 (ValueIdx.ix2 n d) * x7 (ValueIdx.ix2 (i 0) d)) + x8 i)) * Ideal.ofBits .f32 0x36A3D70A#32 := by
  rw [postR_apply]
  exact (Cert.PostWords.post_law fun n : Fin 2048 => (∑ d : Fin 1024, x0 (ValueIdx.ix2 n d) * x7 (ValueIdx.ix2 (i 0) d)) + x8 i).symm

end Cert.PostRef

end
-- ==== Proof.PostJoin.lean ====
/-
  The join of the two spellings of the learned rates.

  One program reads the first 65792 entries of a [66560] array whose entry j is
      (Σₙ σ((Σ_d x[n, d] · w[j, d]) + bias[j])) · (c / 2048),
  where x is src with its format changed, w is Wlr padded below with 768 zero rows and its format changed, and bias
  is blr padded with 768 zeros. On the extended reals a change of format is the identity, and at a position
  i < 65792 — inside the unpadded part — the padded arrays are Wlr and blr themselves. So entry i of that slice is
      (Σₙ σ((Σ_d src[n, d] · Wlr[i, d]) + blr[i])) · (c / 2048),
  which is the other program's learned rate at i, (0 + Σₙ c · σ(…)) / 2048, by the law of the words. Nothing is
  assumed of the inputs.
-/
import proofs.«157813_j45432164057777_1_alg».proof.Proof.Spec
import proofs.«157813_j45432164057777_1_alg».proof.Proof.PostRef
import Idealize.ShloMosaic.Lib.Pipeline.Value
import Idealize.ShloMosaic.Lib.KernelVsHost

noncomputable section

namespace Cert.PostJoin

open Idealize.ShloMosaic
open Cert.KernelIdeal
variable [Cert.KernelIdeal.Facts] [Cert.ReferenceIdeal.Facts]
open Cert.KernelIdeal.Facts₀ Cert.KernelIdeal.Facts

/-- The change of format is the identity: the staged src is src. -/
theorem stagedSrc_at (x0 : FVec Ideal S2048x1024 .f32) (j : S2048x1024.Idx) : Cert.Spec.stagedSrc x0 j = x0 j := rfl

/-- The staged Wlr at a row below 65792 is Wlr at that row: the 768 zero rows come after it, and the change of
    format is the identity. -/
theorem stagedWlr_at (x7 : FVec Ideal S65792x1024 .f32) (j0 : Fin 66560) (i0 : Fin 65792) (h : j0.val = i0.val) (d : Fin 1024) :
    Cert.Spec.stagedWlr x7 (ValueIdx.ix2 j0 d) = x7 (ValueIdx.ix2 i0 d) :=
  pad_apply_of_inside ![0, 0] ![768, 0] ![0, 0] x7 _ pads_S65792x1024_S66560x1024_07680_000 h_S_ (ValueIdx.ix2 j0 d) (ValueIdx.ix2 i0 d)
    (fun a => match a with
      | ⟨0, _⟩ => by show j0.val = 0 + i0.val * (0 + 1); omega
      | ⟨1, _⟩ => by show d.val = 0 + d.val * (0 + 1); omega)

/-- The staged blr at a position below 65792 is blr there. -/
theorem stagedBlr_at (x8 : FVec Ideal S65792 .f32) (k : S66560.Idx) (i : S65792.Idx) (h : (k 0).val = (i 0).val) :
    Cert.Spec.stagedBlr x8 k = x8 i :=
  pad_apply_of_inside ![0] ![768] ![0] x8 _ pads_S65792_S66560_07680 h_S_ k i
    (fun a => match a with
      | ⟨0, _⟩ => by show (k 0).val = 0 + (i 0).val * (0 + 1); omega)

/-- The first 65792 entries of the scaled sums of logistic values over the staged arrays are the learned rates as
    the mean over the rows of c times the logistic values. -/
theorem post_join (x0 : FVec Ideal Cert.KernelIdeal.S2048x1024 .f32) (x7 : FVec Ideal Cert.KernelIdeal.S65792x1024 .f32) (x8 : FVec Ideal Cert.KernelIdeal.S65792 .f32) :
    Cert.Spec.postK (Cert.Spec.postArr (Cert.Spec.stagedSrc x0) (Cert.Spec.stagedWlr x7) (Cert.Spec.stagedBlr x8)) = Cert.Spec.postR x0 x7 x8 := by
  funext i
  -- the position i, below 65792, as a position k of the longer array
  have hi : (i 0).val < 66560 := by have : (i 0).val < 65792 := (i 0).isLt; omega
  obtain ⟨k, hk⟩ : ∃ k : S66560.Idx, (k 0).val = (i 0).val := ⟨ValueIdx.ix1 ⟨(i 0).val, hi⟩, rfl⟩
  refine Eq.trans ?_ (Cert.PostRef.postR_apply_scaled x0 x7 x8 i).symm
  -- the slice from offset 0 read at i is the array at k
  unfold Cert.Spec.postK
  refine (extractStridedSlice_apply _ _ slices_S66560_S65792_0 i k (fun a => ?_)).trans ?_
  · match a with
    | ⟨0, _⟩ => show (k 0).val = 0 + (i 0).val; omega
  -- there the three staged arrays are src, Wlr at row i, and blr at i
  · unfold Cert.Spec.postArr
    simp only [stagedSrc_at, stagedWlr_at x7 (k 0) (i 0) hk, stagedBlr_at x8 k i hk]

end Cert.PostJoin

end
-- ==== Proof.LibScaledSums.lean ====
/-
  Scaled sums on the extended reals, and the f32 words of this computation as extended reals.

  On EReal the product does not distribute over the sum in general (⊤ + ⊥ = ⊥ breaks it), but a NONNEGATIVE REAL
  constant does distribute: c · (a + b) = c · a + c · b for every a, b (Mathlib's `EReal.left_distrib_of_nonneg_of_ne_top`).
  By induction on the index set the same holds for every finite sum, with no finiteness asked of the terms.
-/
import Mathlib
import Idealize.ShloMosaic.PureOps.Ideal

noncomputable section

namespace ScaledSums

open Idealize.ShloMosaic

/-- A nonnegative real constant distributes over the sum of two extended reals, whatever they are. -/
theorem coe_mul_add_of_nonneg {c : ℝ} (hc : 0 ≤ c) (a b : EReal) :
    (c : EReal) * (a + b) = (c : EReal) * a + (c : EReal) * b :=
  EReal.left_distrib_of_nonneg_of_ne_top (EReal.coe_nonneg.mpr hc) (EReal.coe_ne_top c) a b

/-- A nonnegative real constant distributes over a finite sum of extended reals: c · Σ_{k∈s} f k = Σ_{k∈s} c · f k. -/
theorem coe_mul_sum_of_nonneg {ι : Type*} {c : ℝ} (hc : 0 ≤ c) (s : Finset ι) (f : ι → EReal) :
    (c : EReal) * ∑ k ∈ s, f k = ∑ k ∈ s, (c : EReal) * f k := by
  classical
  induction s using Finset.induction_on with
  | empty => simp
  | insert a s ha ih =>
    rw [Finset.sum_insert ha, Finset.sum_insert ha, coe_mul_add_of_nonneg hc, ih]

/-- The same over a whole finite index type: c · Σ_k f k = Σ_k c · f k. -/
theorem coe_mul_sum_univ_of_nonneg {ι : Type*} [Fintype ι] {c : ℝ} (hc : 0 ≤ c) (f : ι → EReal) :
    (c : EReal) * ∑ k, f k = ∑ k, (c : EReal) * f k :=
  coe_mul_sum_of_nonneg hc Finset.univ f

/-- The constant on the right: (Σ_{k∈s} f k) · c = Σ_{k∈s} f k · c. -/
theorem sum_mul_coe_of_nonneg {ι : Type*} {c : ℝ} (hc : 0 ≤ c) (s : Finset ι) (f : ι → EReal) :
    (∑ k ∈ s, f k) * (c : EReal) = ∑ k ∈ s, f k * (c : EReal) := by
  rw [mul_comm, coe_mul_sum_of_nonneg hc]
  exact Finset.sum_congr rfl fun k _ => mul_comm _ _

/-- The constant on the right, over a whole finite index type. -/
theorem sum_univ_mul_coe_of_nonneg {ι : Type*} [Fintype ι] {c : ℝ} (hc : 0 ≤ c) (f : ι → EReal) :
    (∑ k, f k) * (c : EReal) = ∑ k, f k * (c : EReal) :=
  sum_mul_coe_of_nonneg hc Finset.univ f

/-! ## The f32 words as extended reals -/

/-- The word 0x00000000 denotes 0. -/
theorem ofBits_f32_zero : Ideal.ofBits .f32 0x00000000#32 = 0 := by
  simp [Ideal.ofBits, Ideal.ieee]

/-- The word 0x3F800000 denotes 1. -/
theorem ofBits_f32_one : Ideal.ofBits .f32 0x3F800000#32 = ((1 : ℝ) : EReal) := by
  simp [Ideal.ofBits, Ideal.ieee, -EReal.coe_mul]; norm_num

/-- The word 0x40000000 denotes 2. -/
theorem ofBits_f32_two : Ideal.ofBits .f32 0x40000000#32 = ((2 : ℝ) : EReal) := by
  simp [Ideal.ofBits, Ideal.ieee, -EReal.coe_mul]; norm_num

/-- The word 0x45000000 denotes 2048 = 2¹¹. -/
theorem ofBits_f32_2048 : Ideal.ofBits .f32 0x45000000#32 = ((2048 : ℝ) : EReal) := by
  simp [Ideal.ofBits, Ideal.ieee, -EReal.coe_mul]; norm_num

/-- The word 0x49000000 denotes 524288 = 2¹⁹. -/
theorem ofBits_f32_524288 : Ideal.ofBits .f32 0x49000000#32 = ((524288 : ℝ) : EReal) := by
  simp [Ideal.ofBits, Ideal.ieee, -EReal.coe_mul]; norm_num

/-- The word 0x36800000 denotes 2⁻¹⁸ = 1/262144. -/
theorem ofBits_f32_inv_262144 : Ideal.ofBits .f32 0x36800000#32 = ((1 / 262144 : ℝ) : EReal) := by
  simp [Ideal.ofBits, Ideal.ieee, -EReal.coe_mul]; norm_num

end ScaledSums

end
-- ==== Proof.GradBridge.lean ====
/-
  The two gradient stages: the kernel program's spelling equals automatic differentiation's, for every residual e and
  every train view t over the extended reals.

  With c = 2⁻¹⁸ = 1/262144 and d = 1 · (1/524288):
    gradWK e t (i, j) = c · Σₙ e(n,i) · t(n,j)            gradWR e t (i, j) = Σₙ (d · (2 · e(n,i))) · t(n,j)
    gradBK e i        = c · (0 + Σₙ e(n,i))               gradBR e i        = 0 + Σ_{u<1} (0 + Σₙ d · (2 · e(n,i)))
  A nonnegative real constant distributes over every finite sum of extended reals, the product of extended reals is
  associative and commutative, and d · 2 = c among the reals.
-/
import proofs.«157813_j45432164057777_1_alg».proof.Proof.Spec
import proofs.«157813_j45432164057777_1_alg».proof.Proof.LibScaledSums
import Idealize.ShloMosaic.Lib.Pipeline.Value
import Idealize.ShloMosaic.Lib.ValueIdx
import Idealize.ShloMosaic.PureOps.Ideal.Laws

noncomputable section

namespace Cert.GradBridge

open Idealize.ShloMosaic

/-! ## The kernel program's two stages read at an index -/

section kernel
open Cert.KernelIdeal
variable [Cert.KernelIdeal.Facts]
open Cert.KernelIdeal.Facts₀ Cert.KernelIdeal.Facts

theorem lhsK_0 (x : S256x256.Idx) (q : dot_S256x2048_S2048x256_S256x256_1_0_0_1_n_n.contr.Idx) :
    (dot_S256x2048_S2048x256_S256x256_1_0_0_1_n_n.lhsIdx x q 0).val = (x 0).val := by
  unfold DotDims.lhsIdx
  rw [dif_neg (show ¬(0 : Fin S256x2048.rank) ∈ dot_S256x2048_S2048x256_S256x256_1_0_0_1_n_n.lhsBatch from List.not_mem_nil), dif_pos (show (0 : Fin S256x2048.rank) ∈ dot_S256x2048_S2048x256_S256x256_1_0_0_1_n_n.lhsNonContracting from List.mem_singleton.mpr rfl)]
  rfl
theorem rhsK_1 (x : S256x256.Idx) (q : dot_S256x2048_S2048x256_S256x256_1_0_0_1_n_n.contr.Idx) :
    (dot_S256x2048_S2048x256_S256x256_1_0_0_1_n_n.rhsIdx x q 1).val = (x 1).val := by
  unfold DotDims.rhsIdx
  rw [dif_neg (show ¬(1 : Fin S2048x256.rank) ∈ dot_S256x2048_S2048x256_S256x256_1_0_0_1_n_n.rhsBatch from List.not_mem_nil), dif_pos (show (1 : Fin S2048x256.rank) ∈ dot_S256x2048_S2048x256_S256x256_1_0_0_1_n_n.rhsNonContracting from List.mem_singleton.mpr rfl)]
  rfl

/-- The [256,2048] × [2048,256] product read at (i, j): Σₙ a(i,n) · t(n,j). -/
theorem dotK_apply (a : FVec Ideal S256x2048 .f32) (t : FVec Ideal S2048x256 .f32) (i j : Fin 256) :
    Host.dotGeneral (F := Ideal) dot_S256x2048_S2048x256_S256x256_1_0_0_1_n_n none a t (ValueIdx.ix2 i j)
      = ∑ n : Fin 2048, a (ValueIdx.ix2 i n) * t (ValueIdx.ix2 n j) := by
  simp only [Host.dotGeneral]
  rw [Ideal.dotGeneral_apply, ← Equiv.sum_comp (ValueIdx.contrEquiv1 dot_S256x2048_S2048x256_S256x256_1_0_0_1_n_n 2048 rfl rfl).symm]
  refine Finset.sum_congr rfl fun n _ => ?_
  have hk := ValueIdx.contrEquiv1_symm_val dot_S256x2048_S2048x256_S256x256_1_0_0_1_n_n 2048 rfl rfl n
  have el : dot_S256x2048_S2048x256_S256x256_1_0_0_1_n_n.lhsIdx (ValueIdx.ix2 i j) ((ValueIdx.contrEquiv1 dot_S256x2048_S2048x256_S256x256_1_0_0_1_n_n 2048 rfl rfl).symm n) = ValueIdx.ix2 i n := funext fun b => Fin.ext (by
    match b with
    | ⟨0, _⟩ => exact lhsK_0 _ _
    | ⟨1, _⟩ => exact (dot_S256x2048_S2048x256_S256x256_1_0_0_1_n_n.lhsIdx_val_of_single rfl _ _).trans hk)
  have er : dot_S256x2048_S2048x256_S256x256_1_0_0_1_n_n.rhsIdx (ValueIdx.ix2 i j) ((ValueIdx.contrEquiv1 dot_S256x2048_S2048x256_S256x256_1_0_0_1_n_n 2048 rfl rfl).symm n) = ValueIdx.ix2 n j := funext fun b => Fin.ext (by
    match b with
    | ⟨0, _⟩ => exact (dot_S256x2048_S2048x256_S256x256_1_0_0_1_n_n.rhsIdx_val_of_single rfl _ _).trans hk
    | ⟨1, _⟩ => exact rhsK_1 _ _)
  rw [el, er]
/-- The kernel program's gradient with respect to W at (i, j): 2⁻¹⁸ · Σₙ e(n,i) · t(n,j). -/
theorem gradWK_apply (e t : FVec Ideal S2048x256 .f32) (i j : Fin 256) :
    Cert.Spec.gradWK e t (ValueIdx.ix2 i j)
      = ((1 / 262144 : ℝ) : EReal) * ∑ n : Fin 2048, e (ValueIdx.ix2 n i) * t (ValueIdx.ix2 n j) := by
  unfold Cert.Spec.gradWK
  rw [ValueIdx.mulf_apply, dotK_apply]
  have hc : broadcastInDim S256x256 ![] bcast_S_S256x256 (constant (F := Ideal) S_ .f32 0x36800000#32) (ValueIdx.ix2 i j)
      = ((1 / 262144 : ℝ) : EReal) :=
    (broadcastInDim_apply _ bcast_S_S256x256 _ (ValueIdx.ix2 i j) ValueIdx.ix0 (fun a => a.elim0)).trans
      ScaledSums.ofBits_f32_inv_262144
  rw [hc]
  refine congrArg (_ * ·) (Finset.sum_congr rfl fun n _ => ?_)
  refine congrArg (· * _) ?_
  exact transpose_apply [1, 0] e transposes_S2048x256_S256x2048_1_0 (ValueIdx.ix2 i n) (ValueIdx.ix2 n i) (fun b => match b with
    | ⟨0, _⟩ => rfl
    | ⟨1, _⟩ => rfl)

/-- The kernel program's gradient with respect to b at i: 2⁻¹⁸ · (0 + Σₙ e(n,i)). -/
theorem gradBK_apply (e : FVec Ideal S2048x256 .f32) (i : Fin 256) :
    Cert.Spec.gradBK e (ValueIdx.ix1 i)
      = ((1 / 262144 : ℝ) : EReal) * (0 + ∑ n : Fin 2048, e (ValueIdx.ix2 n i)) := by
  unfold Cert.Spec.gradBK
  rw [ValueIdx.mulf_apply]
  have hc : broadcastInDim S256 ![] bcast_S_S256 (constant (F := Ideal) S_ .f32 0x36800000#32) (ValueIdx.ix1 i)
      = ((1 / 262144 : ℝ) : EReal) :=
    (broadcastInDim_apply _ bcast_S_S256 _ (ValueIdx.ix1 i) ValueIdx.ix0 (fun a => a.elim0)).trans
      ScaledSums.ofBits_f32_inv_262144
  rw [hc]
  refine congrArg (_ * ·) ?_
  simp only [Host.reduceAdd, Ideal.hostReduceAdd_def]
  rw [Ideal.hostReduceAdd_single reducesTo_S2048x256_S256_d0 (by decide)]
  refine congr (congrArg _ ScaledSums.ofBits_f32_zero) (Finset.sum_congr rfl fun k _ => ?_)
  exact congrArg e (funext fun a => Fin.ext (by match a with | ⟨0, _⟩ => rfl | ⟨1, _⟩ => rfl))

end kernel

/-! ## Automatic differentiation's two stages read at an index -/

section reference
open Cert.ReferenceIdeal
variable [Cert.ReferenceIdeal.Facts]
open Cert.ReferenceIdeal.Facts₀ Cert.ReferenceIdeal.Facts

theorem lhsR_1 (x : S256x256.Idx) (q : dot_S2048x256_S2048x256_S256x256_0_0_1_1_n_n.contr.Idx) :
    (dot_S2048x256_S2048x256_S256x256_0_0_1_1_n_n.lhsIdx x q 1).val = (x 0).val := by
  unfold DotDims.lhsIdx
  rw [dif_neg (show ¬(1 : Fin S2048x256.rank) ∈ dot_S2048x256_S2048x256_S256x256_0_0_1_1_n_n.lhsBatch from List.not_mem_nil), dif_pos (show (1 : Fin S2048x256.rank) ∈ dot_S2048x256_S2048x256_S256x256_0_0_1_1_n_n.lhsNonContracting from List.mem_singleton.mpr rfl)]
  rfl
theorem rhsR_1 (x : S256x256.Idx) (q : dot_S2048x256_S2048x256_S256x256_0_0_1_1_n_n.contr.Idx) :
    (dot_S2048x256_S2048x256_S256x256_0_0_1_1_n_n.rhsIdx x q 1).val = (x 1).val := by
  unfold DotDims.rhsIdx
  rw [dif_neg (show ¬(1 : Fin S2048x256.rank) ∈ dot_S2048x256_S2048x256_S256x256_0_0_1_1_n_n.rhsBatch from List.not_mem_nil), dif_pos (show (1 : Fin S2048x256.rank) ∈ dot_S2048x256_S2048x256_S256x256_0_0_1_1_n_n.rhsNonContracting from List.mem_singleton.mpr rfl)]
  rfl

/-- The product contracting the rows of both operands, read at (i, j): Σₙ a(n,i) · t(n,j). -/
theorem dotR_apply (a : FVec Ideal S2048x256 .f32) (t : FVec Ideal S2048x256 .f32) (i j : Fin 256) :
    Host.dotGeneral (F := Ideal) dot_S2048x256_S2048x256_S256x256_0_0_1_1_n_n none a t (ValueIdx.ix2 i j)
      = ∑ n : Fin 2048, a (ValueIdx.ix2 n i) * t (ValueIdx.ix2 n j) := by
  simp only [Host.dotGeneral]
  rw [Ideal.dotGeneral_apply, ← Equiv.sum_comp (ValueIdx.contrEquiv1 dot_S2048x256_S2048x256_S256x256_0_0_1_1_n_n 2048 rfl rfl).symm]
  refine Finset.sum_congr rfl fun n _ => ?_
  have hk := ValueIdx.contrEquiv1_symm_val dot_S2048x256_S2048x256_S256x256_0_0_1_1_n_n 2048 rfl rfl n
  have el : dot_S2048x256_S2048x256_S256x256_0_0_1_1_n_n.lhsIdx (ValueIdx.ix2 i j) ((ValueIdx.contrEquiv1 dot_S2048x256_S2048x256_S256x256_0_0_1_1_n_n 2048 rfl rfl).symm n) = ValueIdx.ix2 n i := funext fun b => Fin.ext (by
    match b with
    | ⟨0, _⟩ => exact (dot_S2048x256_S2048x256_S256x256_0_0_1_1_n_n.lhsIdx_val_of_single rfl _ _).trans hk
    | ⟨1, _⟩ => exact lhsR_1 _ _)
  have er : dot_S2048x256_S2048x256_S256x256_0_0_1_1_n_n.rhsIdx (ValueIdx.ix2 i j) ((ValueIdx.contrEquiv1 dot_S2048x256_S2048x256_S256x256_0_0_1_1_n_n 2048 rfl rfl).symm n) = ValueIdx.ix2 n j := funext fun b => Fin.ext (by
    match b with
    | ⟨0, _⟩ => exact (dot_S2048x256_S2048x256_S256x256_0_0_1_1_n_n.rhsIdx_val_of_single rfl _ _).trans hk
    | ⟨1, _⟩ => exact rhsR_1 _ _)
  rw [el, er]
/-- The scaled residual automatic differentiation forms, read at (n, i): (1 · (1/524288)) · (2 · e(n,i)). -/
theorem scaled_apply (e : FVec Ideal S2048x256 .f32) (n : Fin 2048) (i : Fin 256) :
    mulf (broadcastInDim S2048x256 ![] bcast_S_S2048x256 (Host.divf (constant (F := Ideal) S_ .f32 0x3F800000#32) (constant S_ .f32 0x49000000#32))) (mulf (broadcastInDim S2048x256 ![] bcast_S_S2048x256 (constant S_ .f32 0x40000000#32)) e) (ValueIdx.ix2 n i)
      = (((1 : ℝ) : EReal) * ((1 / 524288 : ℝ) : EReal)) * (((2 : ℝ) : EReal) * e (ValueIdx.ix2 n i)) := by
  rw [ValueIdx.mulf_apply, ValueIdx.mulf_apply]
  have h1 : broadcastInDim S2048x256 ![] bcast_S_S2048x256 (Host.divf (constant (F := Ideal) S_ .f32 0x3F800000#32) (constant S_ .f32 0x49000000#32)) (ValueIdx.ix2 n i)
      = ((1 : ℝ) : EReal) * ((1 / 524288 : ℝ) : EReal) := by
    refine (broadcastInDim_apply _ bcast_S_S2048x256 _ (ValueIdx.ix2 n i) ValueIdx.ix0 (fun a => a.elim0)).trans ?_
    show Ideal.div (Ideal.ofBits .f32 0x3F800000#32) (Ideal.ofBits .f32 0x49000000#32) = _
    rw [ScaledSums.ofBits_f32_one, ScaledSums.ofBits_f32_524288, Ideal.div_coe (by norm_num)]
  have h2 : broadcastInDim S2048x256 ![] bcast_S_S2048x256 (constant (F := Ideal) S_ .f32 0x40000000#32) (ValueIdx.ix2 n i)
      = ((2 : ℝ) : EReal) :=
    (broadcastInDim_apply _ bcast_S_S2048x256 _ (ValueIdx.ix2 n i) ValueIdx.ix0 (fun a => a.elim0)).trans
      ScaledSums.ofBits_f32_two
  rw [h1, h2]

/-- Automatic differentiation's gradient with respect to W at (i, j): Σₙ ((1 · (1/524288)) · (2 · e(n,i))) · t(n,j). -/
theorem gradWR_apply (e t : FVec Ideal S2048x256 .f32) (i j : Fin 256) :
    Cert.Spec.gradWR e t (ValueIdx.ix2 i j)
      = ∑ n : Fin 2048, ((((1 : ℝ) : EReal) * ((1 / 524288 : ℝ) : EReal)) * (((2 : ℝ) : EReal) * e (ValueIdx.ix2 n i))) * t (ValueIdx.ix2 n j) := by
  unfold Cert.Spec.gradWR
  refine (transpose_apply [1, 0] _ transposes_S256x256_S256x256_1_0 (ValueIdx.ix2 i j) (ValueIdx.ix2 j i) (fun b => match b with
    | ⟨0, _⟩ => rfl
    | ⟨1, _⟩ => rfl)).trans ?_
  refine (transpose_apply [1, 0] _ transposes_S256x256_S256x256_1_0 (ValueIdx.ix2 j i) (ValueIdx.ix2 i j) (fun b => match b with
    | ⟨0, _⟩ => rfl
    | ⟨1, _⟩ => rfl)).trans ?_
  rw [dotR_apply]
  exact Finset.sum_congr rfl fun n _ => congrArg (· * _) (scaled_apply e n i)

/-- The sum over the rows of a [2048,256] array read at column i: 0 + Σₙ y(n,i). -/
theorem colsumR_apply (y : FVec Ideal S2048x256 .f32) (i : Fin 256) :
    Host.reduceAdd (F := Ideal) y (constant S_ .f32 0x00000000#32) reducesTo_S2048x256_S256_d0 h_S_ (ValueIdx.ix1 i)
      = 0 + ∑ n : Fin 2048, y (ValueIdx.ix2 n i) := by
  simp only [Host.reduceAdd, Ideal.hostReduceAdd_def]
  rw [Ideal.hostReduceAdd_single reducesTo_S2048x256_S256_d0 (by decide)]
  refine congr (congrArg _ ScaledSums.ofBits_f32_zero) (Finset.sum_congr rfl fun k _ => ?_)
  exact congrArg y (funext fun a => Fin.ext (by match a with | ⟨0, _⟩ => rfl | ⟨1, _⟩ => rfl))

/-- The sum over the one row of a [1,256] array read at column i: 0 + Σ_{u<1} y(u,i). -/
theorem rowsumR_apply (y : FVec Ideal S1x256 .f32) (i : Fin 256) :
    Host.reduceAdd (F := Ideal) y (constant S_ .f32 0x00000000#32) reducesTo_S1x256_S256_d0 h_S_ (ValueIdx.ix1 i)
      = 0 + ∑ u : Fin 1, y (ValueIdx.ix2 u i) := by
  simp only [Host.reduceAdd, Ideal.hostReduceAdd_def]
  rw [Ideal.hostReduceAdd_single reducesTo_S1x256_S256_d0 (by decide)]
  refine congr (congrArg _ ScaledSums.ofBits_f32_zero) (Finset.sum_congr rfl fun k _ => ?_)
  exact congrArg y (funext fun a => Fin.ext (by match a with | ⟨0, _⟩ => rfl | ⟨1, _⟩ => rfl))

/-- Automatic differentiation's gradient with respect to b at i: 0 + Σ_{u<1} (0 + Σₙ (1 · (1/524288)) · (2 · e(n,i))). -/
theorem gradBR_apply (e : FVec Ideal S2048x256 .f32) (i : Fin 256) :
    Cert.Spec.gradBR e (ValueIdx.ix1 i)
      = 0 + ∑ u : Fin 1, (0 + ∑ n : Fin 2048, (((1 : ℝ) : EReal) * ((1 / 524288 : ℝ) : EReal)) * (((2 : ℝ) : EReal) * e (ValueIdx.ix2 n i))) := by
  unfold Cert.Spec.gradBR
  rw [rowsumR_apply]
  refine congrArg (0 + ·) (Finset.sum_congr rfl fun u _ => ?_)
  refine (shapeCast_apply _ shapeCasts_S256_S1x256 (ValueIdx.ix2 u i) (ValueIdx.ix1 i) ?_).trans ?_
  · rewrite [Shape.rowMajor_val_one, Shape.rowMajor_val_two]
    have hu : u.val < 1 := u.isLt
    show i.val = u.val * 256 + i.val
    omega
  rw [colsumR_apply]
  exact congrArg (0 + ·) (Finset.sum_congr rfl fun n _ => scaled_apply e n i)

end reference

/-! ## The two spellings agree -/

section bridge
variable [Cert.KernelIdeal.Facts] [Cert.ReferenceIdeal.Facts]

/-- Among the reals (1 · (1/524288)) · 2 = 1/262144. -/
theorem scale_eq :
    (((1 : ℝ) : EReal) * ((1 / 524288 : ℝ) : EReal)) * ((2 : ℝ) : EReal) = ((1 / 262144 : ℝ) : EReal) := by
  rw [← EReal.coe_mul, ← EReal.coe_mul]
  exact congrArg _ (by norm_num)

/-- The gradient with respect to W: 2⁻¹⁸ · Σₙ e(n,i) · t(n,j) = Σₙ ((1 · (1/524288)) · (2 · e(n,i))) · t(n,j). -/
theorem gradW_eq (e t : FVec Ideal Cert.KernelIdeal.S2048x256 .f32) : Cert.Spec.gradWK e t = Cert.Spec.gradWR e t := by
  funext x
  obtain ⟨i, j, rfl⟩ : ∃ i j : Fin 256, x = ValueIdx.ix2 i j := ⟨x 0, x 1, ValueIdx.eq_ix2 x⟩
  rw [gradWK_apply, gradWR_apply, ScaledSums.coe_mul_sum_univ_of_nonneg (by norm_num)]
  refine Finset.sum_congr rfl fun n _ => ?_
  rw [← scale_eq]
  simp only [mul_assoc]

/-- The gradient with respect to b: 2⁻¹⁸ · (0 + Σₙ e(n,i)) = 0 + Σ_{u<1} (0 + Σₙ (1 · (1/524288)) · (2 · e(n,i))). -/
theorem gradB_eq (e : FVec Ideal Cert.KernelIdeal.S2048x256 .f32) : Cert.Spec.gradBK e = Cert.Spec.gradBR e := by
  funext x
  obtain ⟨i, rfl⟩ : ∃ i : Fin 256, x = ValueIdx.ix1 i := ⟨x 0, ValueIdx.eq_ix1 x⟩
  rw [gradBK_apply, gradBR_apply]
  simp only [Fin.sum_univ_one, zero_add]
  rw [ScaledSums.coe_mul_sum_univ_of_nonneg (by norm_num)]
  refine Finset.sum_congr rfl fun n _ => ?_
  rw [← scale_eq]
  simp only [mul_assoc]

end bridge

end Cert.GradBridge

end
-- ==== Proof.KernelValue.lean ====
/-
  The kernel program's run with its result named in the reference's vocabulary. The generated frame run leaves the
  result at the host tail's term over the grid's output array; that term is the common end `Spec.tail` of the
  grid's sliced output and the kernel's gradients (KernelTail); the grid's output array is `Spec.postArr` of the
  three staged arrays (PostBlocks), which are the padded, format-changed src, Wlr, blr (HostPrefix); its first
  65792 entries are the reference's learned rates (PostJoin: (Σₙ σ)·(f32(0.01)/2048) = (Σₙ f32(0.01)·σ)/2048, σ
  always a real); and the kernel's gradients are automatic differentiation's (GradBridge: a nonnegative real
  constant moves through a sum of extended reals).
-/
import proofs.«157813_j45432164057777_1_alg».proof.Proof.Spec
import proofs.«157813_j45432164057777_1_alg».proof.Proof.KernelTail
import proofs.«157813_j45432164057777_1_alg».proof.Proof.HostPrefix
import proofs.«157813_j45432164057777_1_alg».proof.Proof.PostBlocks
import proofs.«157813_j45432164057777_1_alg».proof.Proof.PostJoin
import proofs.«157813_j45432164057777_1_alg».proof.Proof.GradBridge

set_option maxRecDepth 16384

noncomputable section

namespace Cert.KernelIdeal.KernelValue

open Idealize.ShloMosaic Idealize.ShloMosaic.TcCoe Idealize.SL.Sem Cert.KernelIdeal Cert.KernelIdeal.Gen

variable [Cert.KernelIdeal.Facts] [Cert.ReferenceIdeal.Facts]

/-- The result both programs end with, as a function of the kernel program's argument arrays. -/
def result (m : (ℓ : Loc nD τ sig) → Buf (Elt Ideal) ℓ) (c : Dev nD) : FVec Ideal S2048x1024 .f32 :=
  Cert.Spec.tail (m ((c.tc : Thread nD τ).loc main_arg0)) (m ((c.tc : Thread nD τ).loc main_arg2))
    (m ((c.tc : Thread nD τ).loc main_arg4)) (m ((c.tc : Thread nD τ).loc main_arg5)) (m ((c.tc : Thread nD τ).loc main_arg6))
    (Cert.Spec.postR (m ((c.tc : Thread nD τ).loc main_arg0)) (m ((c.tc : Thread nD τ).loc main_arg7)) (m ((c.tc : Thread nD τ).loc main_arg8)))
    (Cert.Spec.gradWR
      (Cert.Spec.resid (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6)))
      (Cert.Spec.proj (m ((c.tc : Thread nD τ).loc main_arg0)) (m ((c.tc : Thread nD τ).loc main_arg1))))
    (Cert.Spec.gradBR
      (Cert.Spec.resid (m ((c.tc : Thread nD τ).loc main_arg0)) (m ((c.tc : Thread nD τ).loc main_arg1)) (m ((c.tc : Thread nD τ).loc main_arg3)) (m ((c.tc : Thread nD τ).loc main_arg5)) (m ((c.tc : Thread nD τ).loc main_arg6))))

/-- The host tail's term is that result. -/
theorem tail_result (m : (ℓ : Loc nD τ sig) → Buf (Elt Ideal) ℓ) (c : Dev nD) :
    Pipeline.afterTail₀ cfgs (Gen.dats (F := Ideal) m) 0 (Gen.V0 m) [hostOps1] c main_v36 = result m c := by
  rw [Cert.KernelIdeal.TailValue.tail_eq, Cert.KernelIdeal.PostValue.final, Cert.KernelIdeal.Staged.staged_src,
    Cert.KernelIdeal.Staged.staged_wlr, Cert.KernelIdeal.Staged.staged_blr, Cert.PostJoin.post_join,
    Cert.GradBridge.gradW_eq, Cert.GradBridge.gradB_eq]
  rfl

/-- Every weakly fair execution of the kernel program terminates with its result at `result` and its arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v36 (Pipeline.mem_restRefs_of main_v36 (by decide) (by decide))).trans (tail_result m c),
      (((h c).2 main_arg0 (Pipeline.mem_restRefs_of main_arg0 (by decide) (by decide))).trans (W_main_arg0 m (Gen.dats m) c)),
      (((h c).2 main_arg1 (Pipeline.mem_restRefs_of main_arg1 (by decide) (by decide))).trans (W_main_arg1 m (Gen.dats m) c)),
      (((h c).2 main_arg2 (Pipeline.mem_restRefs_of main_arg2 (by decide) (by decide))).trans (W_main_arg2 m (Gen.dats m) c)),
      (((h c).2 main_arg3 (Pipeline.mem_restRefs_of main_arg3 (by decide) (by decide))).trans (W_main_arg3 m (Gen.dats m) c)),
      (((h c).2 main_arg4 (Pipeline.mem_restRefs_of main_arg4 (by decide) (by decide))).trans (W_main_arg4 m (Gen.dats m) c)),
      (((h c).2 main_arg5 (Pipeline.mem_restRefs_of main_arg5 (by decide) (by decide))).trans (W_main_arg5 m (Gen.dats m) c)),
      (((h c).2 main_arg6 (Pipeline.mem_restRefs_of main_arg6 (by decide) (by decide))).trans (W_main_arg6 m (Gen.dats m) c)),
      (((h c).2 main_arg7 (Pipeline.mem_restRefs_of main_arg7 (by decide) (by decide))).trans (W_main_arg7 m (Gen.dats m) c)),
      (((h c).2 main_arg8 (Pipeline.mem_restRefs_of main_arg8 (by decide) (by decide))).trans (W_main_arg8 m (Gen.dats m) c))⟩)
    (Gen.run_main (F := Ideal) m ρ)

end Cert.KernelIdeal.KernelValue

end
-- ==== Proof.lean ====
/-
  Kernel against reference for a test-time-training layer with learned per-entry learning rates, on the extended
  reals. From src [2048,1024], the projections theta_k, theta_q, theta_v [1024,256], theta_o [256,1024], the fast
  weights W [256,256], b [256] and the rate weights Wlr [65792,1024], blr [65792], both programs compute
      train = src·theta_k,  label = src·theta_v,  test = src·theta_q,
      e     = (train·Wᵀ + b) − (label − train),
      (gW, gb) = the gradient of mean(e²) in (W, b),
      post  = the mean over the 2048 rows of 0.01·σ(src·Wlrᵀ + blr)      (65792 learned rates),
      out   = (test·(W − lr_mat ⊙ gW)ᵀ + (b − lr_bias ⊙ gb) + test)·theta_o,
  lr_mat the first 256·256 rates as a matrix and lr_bias the last 256.

  The kernel program computes post in a grid of 65 points, each a [2048,1024]×[1024,1024]ᵀ product of src with 1024
  rows of the zero-padded Wlr, plus the bias, through σ, summed over the rows and scaled by the one word
  f32(0.01)/2048 (the same mantissa as f32(0.01), the exponent lower by 11); everything else it does on the host,
  in the reference's own words except for the gradient, which it scales by 2/(2048·256) = 2⁻¹⁸ after the contraction
  where automatic differentiation scales each residual by (1/524288)·2 before it.

  The two results are one function of the arguments on ALL extended reals — the precondition is never opened:
    · a change of float format is the identity, and the zero padding is sliced away again;
    · σ(x) = 1/(1 + e⁻ˣ) is a real in [0,1] at every extended real, so (Σₙ σₙ)·(c/2048) = (Σₙ c·σₙ)/2048 is an
      identity of reals (PostWords, PostRef, PostJoin);
    · a nonnegative real constant distributes over a sum of extended reals, and their product is associative and
      commutative, so 2⁻¹⁸·Σₙ eₙ·tₙ = Σₙ ((1/524288)·(2·eₙ))·tₙ (LibScaledSums, GradBridge);
    · the rest of the two programs is the same operations in the same order (Spec, RefValue, KernelTail).
  The kernel's side reads the grid's output array off the generated frame run: the body's one store at an index
  (PostBody), the 65 blocks tiling the array (PostBlocks), the staged arrays (HostPrefix), the host operations after
  the grid (KernelTail), joined in KernelValue. The reference's side is its generated run (Run, Read).
  The idealization rewrote nothing, so `preserves` has no conjunct.
-/
import proofs.«157813_j45432164057777_1_alg».proof.Defs
import proofs.«157813_j45432164057777_1_alg».proof.Proof.Gen.Kernel
import proofs.«157813_j45432164057777_1_alg».proof.Proof.Gen.Kernel.Skeleton
import proofs.«157813_j45432164057777_1_alg».proof.Proof.Gen.Kernel.Launch
import proofs.«157813_j45432164057777_1_alg».proof.Proof.Gen.Kernel.Points
import proofs.«157813_j45432164057777_1_alg».proof.Proof.Gen.Kernel.Frame
import proofs.«157813_j45432164057777_1_alg».proof.Proof.Gen.KernelIdeal
import proofs.«157813_j45432164057777_1_alg».proof.Proof.Gen.KernelIdeal.Skeleton
import proofs.«157813_j45432164057777_1_alg».proof.Proof.Gen.KernelIdeal.Launch
import proofs.«157813_j45432164057777_1_alg».proof.Proof.Gen.KernelIdeal.Points
import proofs.«157813_j45432164057777_1_alg».proof.Proof.Gen.KernelIdeal.Frame
import proofs.«157813_j45432164057777_1_alg».proof.Proof.Gen.ReferenceIdeal
import proofs.«157813_j45432164057777_1_alg».proof.Proof.Gen.ReferenceIdeal.Run
import proofs.«157813_j45432164057777_1_alg».proof.Proof.Gen.ReferenceIdeal.Read
import proofs.«157813_j45432164057777_1_alg».proof.Proof.Gen.Pre_finite_inputs
import proofs.«157813_j45432164057777_1_alg».proof.Proof.RefValue
import proofs.«157813_j45432164057777_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments as they were: the generated frame. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference has no grid: its frame is its generated run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments both programs end at one result: the kernel program at
    `KernelValue.result` of its arguments, the reference at the common end of its own learned rates and gradients
    (`RefValue.res_eq_tail`), which is the same term once the arguments' agreement is rewritten. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.res_eq_tail]
  obtain ⟨a0, a1, a2, a3, a4, a5, a6, a7, a8⟩ := hagree c
  rw [a0, a1, a2, a3, a4, a5, a6, a7, a8]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
